-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v2_0)) (v1 : (c : Dev Cert.KernelIdeal.nD) → Buf (Elt Ideal) ((c.tc : Thread Cert.KernelIdeal.nD Cert.KernelIdeal.τ).loc Cert.KernelIdeal.main_v2_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2_0) = v0 c
          ∧ r.2.mem ((c.tc : Thread Cert.KernelIdeal.nD Cert.KernelIdeal.τ).loc Cert.KernelIdeal.main_v2_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v49) = v0 c
          ∧ r.2.mem ((c.tc : Thread Cert.ReferenceIdeal.nD Cert.ReferenceIdeal.τ).loc Cert.ReferenceIdeal.main_v53) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x512x600 : Shape := ⟨3, ![64, 512, 600]⟩
abbrev S64x512 : Shape := ⟨2, ![64, 512]⟩
abbrev S_ : Shape := ⟨0, ![]⟩

class Facts : Prop where
  bcast_S_S64x512x600 : S_.BroadcastsInDim S64x512x600 (![] : Fin 0 → Fin S64x512x600.rank)
  reducesTo_S64x512x600_S_d0_1_2 : S64x512x600.ReducesTo [0, 1, 2] S_
  h_S_ : 0 < S_.numel
  bcast_S_S64x512 : S_.BroadcastsInDim S64x512 (![] : Fin 0 → Fin S64x512.rank)
  reducesTo_S64x512_S_d0_1 : S64x512.ReducesTo [0, 1] S_

variable [Facts]

def fn_part1 {F : FTy → Type} [FloatOps F] (main_v13 : IVec S_ 1) (main_v16 : IVec S64x512 1) : IVec S_ 1 :=
  let main_c_5 : IVec S_ 1 := constantI S_ 1 1#1
  let main_v17 : IVec S_ 1 := (fun x v => Host.reduce IntOp.andi x v reducesTo_S64x512_S_d0_1 h_S_) main_v16 main_c_5
  let main_v18 : IVec S_ 1 := andi main_v13 main_v17
  main_v18

def fn {F : FTy → Type} [FloatOps F] (main_arg0 : FVec F S64x512x600 .f32) (main_arg1 : FVec F S64x512 .f32) (main_arg2 : FVec F S64x512x600 .f32) (main_arg3 : FVec F S64x512 .f32) : IVec S_ 1 :=
  let main_v0 : FVec F S64x512x600 .f32 := Host.absf main_arg0
  let main_cst : FVec F S_ .f32 := constant S_ .f32 0x7F800000#32
  let main_v1 : FVec F S64x512x600 .f32 := broadcastInDim S64x512x600 ![] bcast_S_S64x512x600 main_cst
  let main_v2 : IVec S64x512x600 1 := cmpf .olt main_v0 main_v1
  let main_c : IVec S_ 1 := constantI S_ 1 1#1
  let main_v3 : IVec S_ 1 := (fun x v => Host.reduce IntOp.andi x v reducesTo_S64x512x600_S_d0_1_2 h_S_) main_v2 main_c
  let main_v4 : FVec F S64x512 .f32 := Host.absf main_arg1
  let main_cst_0 : FVec F S_ .f32 := constant S_ .f32 0x7F800000#32
  let main_v5 : FVec F S64x512 .f32 := broadcastInDim S64x512 ![] bcast_S_S64x512 main_cst_0
  let main_v6 : IVec S64x512 1 := cmpf .olt main_v4 main_v5
  let main_c_1 : IVec S_ 1 := constantI S_ 1 1#1
  let main_v7 : IVec S_ 1 := (fun x v => Host.reduce IntOp.andi x v reducesTo_S64x512_S_d0_1 h_S_) main_v6 main_c_1
  let main_v8 : IVec S_ 1 := andi main_v3 main_v7
  let main_v9 : FVec F S64x512x600 .f32 := Host.absf main_arg2
  let main_cst_2 : FVec F S_ .f32 := constant S_ .f32 0x7F800000#32
  let main_v10 : FVec F S64x512x600 .f32 := broadcastInDim S64x512x600 ![] bcast_S_S64x512x600 main_cst_2
  let main_v11 : IVec S64x512x600 1 := cmpf .olt main_v9 main_v10
  let main_c_3 : IVec S_ 1 := constantI S_ 1 1#1
  let main_v12 : IVec S_ 1 := (fun x v => Host.reduce IntOp.andi x v reducesTo_S64x512x600_S_d0_1_2 h_S_) main_v11 main_c_3
  let main_v13 : IVec S_ 1 := andi main_v8 main_v12
  let main_v14 : FVec F S64x512 .f32 := Host.absf main_arg3
  let main_cst_4 : FVec F S_ .f32 := constant S_ .f32 0x7F800000#32
  let main_v15 : FVec F S64x512 .f32 := broadcastInDim S64x512 ![] bcast_S_S64x512 main_cst_4
  let main_v16 : IVec S64x512 1 := cmpf .olt main_v14 main_v15
  fn_part1 (F := F) main_v13 main_v16
-- ==== Kernel.lean ====
abbrev S64x512x600 : Shape := ⟨3, ![64, 512, 600]⟩
abbrev S64x512 : Shape := ⟨2, ![64, 512]⟩
abbrev S64x1x512 : Shape := ⟨3, ![64, 1, 512]⟩
abbrev S1x512x600 : Shape := ⟨3, ![1, 512, 600]⟩
abbrev S1x1x512 : Shape := ⟨3, ![1, 1, 512]⟩
abbrev S512x600 : Shape := ⟨2, ![512, 600]⟩
abbrev S1x512 : Shape := ⟨2, ![1, 512]⟩
abbrev S512x512 : Shape := ⟨2, ![512, 512]⟩
abbrev S512 : Shape := ⟨1, ![512]⟩
abbrev S512x1 : Shape := ⟨2, ![512, 1]⟩

abbrev nBuf : Space → Nat
  | .hbm => 8
  | .vmem => 12
  | .smem => 0
  | _ => 0

abbrev bufTy : (tb : Table) → Fin (tcTables nBuf tb) → BufTy
  | .hbm, ⟨0, _⟩ => ⟨S64x512x600, .f32⟩
  | .hbm, ⟨1, _⟩ => ⟨S64x512, .f32⟩
  | .hbm, ⟨2, _⟩ => ⟨S64x512x600, .f32⟩
  | .hbm, ⟨3, _⟩ => ⟨S64x512, .f32⟩
  | .hbm, ⟨4, _⟩ => ⟨S64x1x512, .f32⟩
  | .hbm, ⟨5, _⟩ => ⟨S64x1x512, .f32⟩
  | .hbm, ⟨6, _⟩ => ⟨S64x512x600, .f32⟩
  | .hbm, ⟨7, _⟩ => ⟨S64x512x600, .f32⟩
  | .local _ .vmem, ⟨0, _⟩ => ⟨S1x512x600, .f32⟩
  | .local _ .vmem, ⟨1, _⟩ => ⟨S1x512x600, .f32⟩
  | .local _ .vmem, ⟨2, _⟩ => ⟨S1x512x600, .f32⟩
  | .local _ .vmem, ⟨3, _⟩ => ⟨S1x512x600, .f32⟩
  | .local _ .vmem, ⟨4, _⟩ => ⟨S1x1x512, .f32⟩
  | .local _ .vmem, ⟨5, _⟩ => ⟨S1x1x512, .f32⟩
  | .local _ .vmem, ⟨6, _⟩ => ⟨S1x1x512, .f32⟩
  | .local _ .vmem, ⟨7, _⟩ => ⟨S1x1x512, .f32⟩
  | .local _ .vmem, ⟨8, _⟩ => ⟨S1x512x600, .f32⟩
  | .local _ .vmem, ⟨9, _⟩ => ⟨S1x512x600, .f32⟩
  | .local _ .vmem, ⟨10, _⟩ => ⟨S1x512x600, .f32⟩
  | .local _ .vmem, ⟨11, _⟩ => ⟨S1x512x600, .f32⟩
  | _, _ => ⟨S64x512x600, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨1, ![64], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x512x600 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x512x600 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x512x600 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x512x600 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  bcast_S64x512_S64x1x512_0_2 : S64x512.BroadcastsInDim S64x1x512 (![0, 2] : Fin 2 → Fin S64x1x512.rank)
  inb_S1x512x600_S1x512x600_0_0_0 : ∀ a, (![0, 0, 0] : Fin 3 → Nat) a + S1x512x600.size a ≤ S1x512x600.size a
  h_S1x512x600 : 0 < S1x512x600.numel
  shapeCasts_S1x512x600_S512x600 : S1x512x600.ShapeCasts S512x600
  bitsLt_bf16_f32 : FTy.bits .bf16 < FTy.bits .f32
  inb_S1x1x512_S1x1x512_0_0_0 : ∀ a, (![0, 0, 0] : Fin 3 → Nat) a + S1x1x512.size a ≤ S1x1x512.size a
  h_S1x1x512 : 0 < S1x1x512.numel
  shapeCasts_S1x1x512_S1x512 : S1x1x512.ShapeCasts S1x512
  broadcasts_S1x512_S512x512 : S1x512.Broadcasts S512x512
  reduces_S512x512_S512 : S512x512.Reduces [1] S512
  shapeCasts_S512_S512x1 : S512.ShapeCasts S512x1
  broadcasts_S512x1_S512x512 : S512x1.Broadcasts S512x512
  transposes_S1x512_p1_0_S512x1 : S1x512.Transposes [1, 0] S512x1
  broadcasts_S512x1_S512x600 : S512x1.Broadcasts S512x600
  shapeCasts_S512x600_S1x512x600 : S512x600.ShapeCasts S1x512x600
  dot_S512x600_S512x600_S512x512_1_1_0_0_n_n_wf : DotDims.WF S512x600 S512x600 S512x512 [1] [1] [0] [0] [] []
  dot_S512x512_S512x600_S512x600_1_0_0_1_n_n_wf : DotDims.WF S512x512 S512x600 S512x600 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x600.size a ≤ S64x512x600.size a
  hwx0_0 : ∀ i : grid0.Coords, EltTy.bits .f32 = 32 ∨ (Rect.block (s := S64x512x600) S1x512x600.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x512x600.size a ≤ S64x512x600.size a
  hwx0_1 : ∀ i : grid0.Coords, EltTy.bits .f32 = 32 ∨ (Rect.block (s := S64x512x600) S1x512x600.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x512.size a ≤ S64x1x512.size a
  hwx0_2 : ∀ i : grid0.Coords, EltTy.bits .f32 = 32 ∨ (Rect.block (s := S64x1x512) S1x1x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x512.size a ≤ S64x1x512.size a
  hwx0_3 : ∀ i : grid0.Coords, EltTy.bits .f32 = 32 ∨ (Rect.block (s := S64x1x512) S1x1x512.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x512x600.size a ≤ S64x512x600.size a
  hwx0_4 : ∀ i : grid0.Coords, EltTy.bits .f32 = 32 ∨ (Rect.block (s := S64x512x600) S1x512x600.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x512x600.size a ≤ S64x512x600.size a
  hwx0_5 : ∀ i : grid0.Coords, EltTy.bits .f32 = 32 ∨ (Rect.block (s := S64x512x600) S1x512x600.size (cc0_transform_5 i) (hinb0_5 i)).WholeWords (EltTy.packing .f32)

variable [Facts₀]

def dot_S512x600_S512x600_S512x512_1_1_0_0_n_n : DotDims S512x600 S512x600 S512x512 where
  lhsContracting := [1]
  rhsContracting := [1]
  lhsNonContracting := [0]
  rhsNonContracting := [0]
  lhsBatch := []
  rhsBatch := []
  wf := dot_S512x600_S512x600_S512x512_1_1_0_0_n_n_wf
def dot_S512x512_S512x600_S512x600_1_0_0_1_n_n : DotDims S512x512 S512x600 S512x600 where
  lhsContracting := [1]
  rhsContracting := [0]
  lhsNonContracting := [0]
  rhsNonContracting := [1]
  lhsBatch := []
  rhsBatch := []
  wf := dot_S512x512_S512x600_S512x600_1_0_0_1_n_n_wf

abbrev win0_0 : Pipeline.Window sig grid0 :=
  Pipeline.Window.ofSpec (Memref.whole main_arg0) S1x512x600.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S1x512x600.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x1x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1x1x512.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v2_0) S1x512x600.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v2_1) S1x512x600.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S64x512x600 : Shape := ⟨3, ![64, 512, 600]⟩
abbrev S64x512 : Shape := ⟨2, ![64, 512]⟩
abbrev S64x512x512 : Shape := ⟨3, ![64, 512, 512]⟩
abbrev S64x1x512 : Shape := ⟨3, ![64, 1, 512]⟩
abbrev S_ : Shape := ⟨0, ![]⟩
abbrev S64x512x1 : Shape := ⟨3, ![64, 512, 1]⟩

abbrev nBuf : Space → Nat
  | .hbm => 68
  | .vmem => 0
  | .smem => 0
  | _ => 0

abbrev bufTy : (tb : Table) → Fin (tcTables nBuf tb) → BufTy
  | .hbm, ⟨0, _⟩ => ⟨S64x512x600, .f32⟩
  | .hbm, ⟨1, _⟩ => ⟨S64x512, .f32⟩
  | .hbm, ⟨2, _⟩ => ⟨S64x512x600, .f32⟩
  | .hbm, ⟨3, _⟩ => ⟨S64x512, .f32⟩
  | .hbm, ⟨4, _⟩ => ⟨S64x512x512, .f32⟩
  | .hbm, ⟨5, _⟩ => ⟨S64x1x512, .f32⟩
  | .hbm, ⟨6, _⟩ => ⟨S64x512x512, .f32⟩
  | .hbm, ⟨7, _⟩ => ⟨S64x512x512, .f32⟩
  | .hbm, ⟨8, _⟩ => ⟨S_, .f32⟩
  | .hbm, ⟨9, _⟩ => ⟨S64x512, .f32⟩
  | .hbm, ⟨10, _⟩ => ⟨S_, .f32⟩
  | .hbm, ⟨11, _⟩ => ⟨S64x512, .f32⟩
  | .hbm, ⟨12, _⟩ => ⟨S64x512, .f32⟩
  | .hbm, ⟨13, _⟩ => ⟨S64x512x1, .f32⟩
  | .hbm, ⟨14, _⟩ => ⟨S64x512x512, .f32⟩
  | .hbm, ⟨15, _⟩ => ⟨S64x512x512, .f32⟩
  | .hbm, ⟨16, _⟩ => ⟨S64x512x512, .f32⟩
  | .hbm, ⟨17, _⟩ => ⟨S_, .f32⟩
  | .hbm, ⟨18, _⟩ => ⟨S64x512, .f32⟩
  | .hbm, ⟨19, _⟩ => ⟨S64x512x1, .f32⟩
  | .hbm, ⟨20, _⟩ => ⟨S64x512x512, .f32⟩
  | .hbm, ⟨21, _⟩ => ⟨S64x512x512, .f32⟩
  | .hbm, ⟨22, _⟩ => ⟨S64x512x512, .f32⟩
  | .hbm, ⟨23, _⟩ => ⟨S64x512x512, .f32⟩
  | .hbm, ⟨24, _⟩ => ⟨S_, .f32⟩
  | .hbm, ⟨25, _⟩ => ⟨S64x512, .f32⟩
  | .hbm, ⟨26, _⟩ => ⟨S64x512x1, .f32⟩
  | .hbm, ⟨27, _⟩ => ⟨S_, .f32⟩
  | .hbm, ⟨28, _⟩ => ⟨S64x512x1, .f32⟩
  | .hbm, ⟨29, _⟩ => ⟨S64x512x1, .f32⟩
  | .hbm, ⟨30, _⟩ => ⟨S64x512x512, .f32⟩
  | .hbm, ⟨31, _⟩ => ⟨S64x512x512, .f32⟩
  | .hbm, ⟨32, _⟩ => ⟨S64x512x512, .f32⟩
  | .hbm, ⟨33, _⟩ => ⟨S64x1x512, .f32⟩
  | .hbm, ⟨34, _⟩ => ⟨S64x512x512, .f32⟩
  | .hbm, ⟨35, _⟩ => ⟨S64x512x512, .f32⟩
  | .hbm, ⟨36, _⟩ => ⟨S_, .f32⟩
  | .hbm, ⟨37, _⟩ => ⟨S64x512, .f32⟩
  | .hbm, ⟨38, _⟩ => ⟨S_, .f32⟩
  | .hbm, ⟨39, _⟩ => ⟨S64x512, .f32⟩
  | .hbm, ⟨40, _⟩ => ⟨S64x512, .f32⟩
  | .hbm, ⟨41, _⟩ => ⟨S64x512x1, .f32⟩
  | .hbm, ⟨42, _⟩ => ⟨S64x512x512, .f32⟩
  | .hbm, ⟨43, _⟩ => ⟨S64x512x512, .f32⟩
  | .hbm, ⟨44, _⟩ => ⟨S64x512x512, .f32⟩
  | .hbm, ⟨45, _⟩ => ⟨S_, .f32⟩
  | .hbm, ⟨46, _⟩ => ⟨S64x512, .f32⟩
  | .hbm, ⟨47, _⟩ => ⟨S64x512x1, .f32⟩
  | .hbm, ⟨48, _⟩ => ⟨S64x512x512, .f32⟩
  | .hbm, ⟨49, _⟩ => ⟨S64x512x512, .f32⟩
  | .hbm, ⟨50, _⟩ => ⟨S64x512x512, .f32⟩
  | .hbm, ⟨51, _⟩ => ⟨S64x512x512, .f32⟩
  | .hbm, ⟨52, _⟩ => ⟨S_, .f32⟩
  | .hbm, ⟨53, _⟩ => ⟨S64x512, .f32⟩
  | .hbm, ⟨54, _⟩ => ⟨S64x512x1, .f32⟩
  | .hbm, ⟨55, _⟩ => ⟨S_, .f32⟩
  | .hbm, ⟨56, _⟩ => ⟨S64x512x1, .f32⟩
  | .hbm, ⟨57, _⟩ => ⟨S64x512x1, .f32⟩
  | .hbm, ⟨58, _⟩ => ⟨S64x512x512, .f32⟩
  | .hbm, ⟨59, _⟩ => ⟨S64x512x512, .f32⟩
  | .hbm, ⟨60, _⟩ => ⟨S64x512x600, .f32⟩
  | .hbm, ⟨61, _⟩ => ⟨S64x512x1, .f32⟩
  | .hbm, ⟨62, _⟩ => ⟨S64x512x600, .f32⟩
  | .hbm, ⟨63, _⟩ => ⟨S64x512x600, .f32⟩
  | .hbm, ⟨64, _⟩ => ⟨S64x512x600, .f32⟩
  | .hbm, ⟨65, _⟩ => ⟨S64x512x1, .f32⟩
  | .hbm, ⟨66, _⟩ => ⟨S64x512x600, .f32⟩
  | .hbm, ⟨67, _⟩ => ⟨S64x512x600, .f32⟩
  | _, _ => ⟨S64x512x600, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_1 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_2 : Ref sig .tc := ⟨.hbm, 24, rfl⟩
abbrev main_v17 : Ref sig .tc := ⟨.hbm, 25, rfl⟩
abbrev main_v18 : Ref sig .tc := ⟨.hbm, 26, rfl⟩
abbrev main_cst_3 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_cst_4 : Ref sig .tc := ⟨.hbm, 36, rfl⟩
abbrev main_v27 : Ref sig .tc := ⟨.hbm, 37, rfl⟩
abbrev main_cst_5 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_cst_6 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_cst_7 : Ref sig .tc := ⟨.hbm, 52, rfl⟩
abbrev main_v40 : Ref sig .tc := ⟨.hbm, 53, rfl⟩
abbrev main_v41 : Ref sig .tc := ⟨.hbm, 54, rfl⟩
abbrev main_cst_8 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩

abbrev nD : Nat := 1
abbrev τ : Topo := Topo.v7x

variable {F : FTy → Type} [FloatOps F]

class Facts₀ : Prop where
  bcast_S64x512_S64x1x512_0_2 : S64x512.BroadcastsInDim S64x1x512 (![0, 2] : Fin 2 → Fin S64x1x512.rank)
  bcast_S64x1x512_S64x512x512_0_1_2 : S64x1x512.BroadcastsInDim S64x512x512 (![0, 1, 2] : Fin 3 → Fin S64x512x512.rank)
  reducesTo_S64x512x512_S64x512_d2 : S64x512x512.ReducesTo [2] S64x512
  h_S_ : 0 < S_.numel
  bcast_S_S64x512 : S_.BroadcastsInDim S64x512 (![] : Fin 0 → Fin S64x512.rank)
  bcast_S64x512_S64x512x1_0_1 : S64x512.BroadcastsInDim S64x512x1 (![0, 1] : Fin 2 → Fin S64x512x1.rank)
  bcast_S64x512x1_S64x512x512_0_1_2 : S64x512x1.BroadcastsInDim S64x512x512 (![0, 1, 2] : Fin 3 → Fin S64x512x512.rank)
  bcast_S_S64x512x1 : S_.BroadcastsInDim S64x512x1 (![] : Fin 0 → Fin S64x512x1.rank)
  transposes_S64x512x512_S64x512x512_0_2_1 : S64x512x512.Transposes [0, 2, 1] S64x512x512
  bcast_S64x512x1_S64x512x600_0_1_2 : S64x512x1.BroadcastsInDim S64x512x600 (![0, 1, 2] : Fin 3 → Fin S64x512x600.rank)
  dot_S64x512x600_S64x512x600_S64x512x512_2_2_1_1_0_0_wf : DotDims.WF S64x512x600 S64x512x600 S64x512x512 [2] [2] [1] [1] [0] [0]
  dot_S64x512x512_S64x512x600_S64x512x600_2_1_1_2_0_0_wf : DotDims.WF S64x512x512 S64x512x600 S64x512x600 [2] [1] [1] [2] [0] [0]

variable [Facts₀]

def dot_S64x512x600_S64x512x600_S64x512x512_2_2_1_1_0_0 : DotDims S64x512x600 S64x512x600 S64x512x512 where
  lhsContracting := [2]
  rhsContracting := [2]
  lhsNonContracting := [1]
  rhsNonContracting := [1]
  lhsBatch := [0]
  rhsBatch := [0]
  wf := dot_S64x512x600_S64x512x600_S64x512x512_2_2_1_1_0_0_wf
def dot_S64x512x512_S64x512x600_S64x512x600_2_1_1_2_0_0 : DotDims S64x512x512 S64x512x600 S64x512x600 where
  lhsContracting := [2]
  rhsContracting := [1]
  lhsNonContracting := [1]
  rhsNonContracting := [2]
  lhsBatch := [0]
  rhsBatch := [0]
  wf := dot_S64x512x512_S64x512x600_S64x512x600_2_1_1_2_0_0_wf

class Facts : Prop extends Facts₀ where

variable [Facts]
-- ==== Proof.SoftmaxLaw.lean ====
/-
  A masked, renormalised softmax row over the extended reals, in the two arrangements this certificate meets, and the
  law that joins them.

  For a row of scores `x` and a mask `w` over a finite index type, put `M = max_k x k`, `e k = exp (x k - M)`,
  `D = ∑ e`. One arrangement divides once, `e h · w h / (∑ e·w + ε · D)`; the other divides twice,
  `(e h / D) · w h / (∑ (e/D)·w + ε)`. When every score and mask entry and `ε` are real numbers and the row is not
  empty, `M` is real, `D` is a positive real, and the two are equal: the second is the first with numerator and
  denominator both divided by `D`. Where the common denominator vanishes both are the infinity of the numerator's
  sign, which dividing by the positive `D` does not change.
-/
import Idealize.ShloMosaic.PureOps.Ideal.Laws

open scoped BigOperators

noncomputable section

namespace Cert.Attend

open Idealize.ShloMosaic

/-- An extended real that is a real number. -/
def IsReal (x : EReal) : Prop := ∃ r : ℝ, x = (r : EReal)

theorem IsReal.mul {x y : EReal} (hx : IsReal x) (hy : IsReal y) : IsReal (x * y) := by
  obtain ⟨a, rfl⟩ := hx; obtain ⟨b, rfl⟩ := hy; exact ⟨a * b, (EReal.coe_mul a b).symm⟩

theorem IsReal.add {x y : EReal} (hx : IsReal x) (hy : IsReal y) : IsReal (x + y) := by
  obtain ⟨a, rfl⟩ := hx; obtain ⟨b, rfl⟩ := hy; exact ⟨a + b, (EReal.coe_add a b).symm⟩

/-- The coercion of the reals commutes with finite sums. -/
theorem coe_sum {ι : Type} (s : Finset ι) (f : ι → ℝ) : (∑ k ∈ s, (f k : EReal)) = ((∑ k ∈ s, f k : ℝ) : EReal) := by
  classical
  induction s using Finset.induction_on with
  | empty => simp
  | insert a s ha ih => rw [Finset.sum_insert ha, Finset.sum_insert ha, ih, EReal.coe_add]

theorem IsReal.sum {ι : Type} (s : Finset ι) {f : ι → EReal} (hf : ∀ k, IsReal (f k)) : IsReal (∑ k ∈ s, f k) := by
  choose g hg using hf
  exact ⟨∑ k ∈ s, g k, by rw [← coe_sum]; exact Finset.sum_congr rfl fun k _ => hg k⟩

/-- A pattern whose exponent field is not all ones denotes a real number. -/
theorem ieee_isReal {e m w : Nat} (b : BitVec w) (h : (b.extractLsb' m e).toNat ≠ 2 ^ e - 1) : IsReal (Ideal.ieee e m b) := by
  unfold Ideal.ieee
  dsimp only
  rw [if_neg h]
  split_ifs <;> exact ⟨_, rfl⟩

/-- The f32 pattern of minus infinity. -/
theorem ofBits_neg_inf : Ideal.ofBits .f32 0xFF800000#32 = ⊥ := by simp [Ideal.ofBits, Ideal.ieee]

/-- The f32 pattern `0x29E12E13` (the kernel's and the reference's shared ε) denotes a real number. -/
theorem ofBits_eps_isReal : IsReal (Ideal.ofBits .f32 0x29E12E13#32) := by
  show IsReal (Ideal.ieee 8 23 (0x29E12E13#32 : BitVec 32))
  exact ieee_isReal _ (by decide)

variable {ι : Type} [Fintype ι]

/-- The row's maximum, folded from `ninf`. -/
def rowMax (ninf : EReal) (x : ι → EReal) : EReal := (Finset.univ : Finset ι).fold max ninf x

/-- The one-division arrangement. -/
def attnK (ninf eps : EReal) (x w : ι → EReal) (h : ι) : EReal :=
  Ideal.div (Ideal.exp (x h - rowMax ninf x) * w h)
    ((∑ k, Ideal.exp (x k - rowMax ninf x) * w k) + eps * (∑ k, Ideal.exp (x k - rowMax ninf x)))

/-- The two-division arrangement: the row maximum is once more compared with `ninf`, and both sums start from `zero`. -/
def attnR (ninf zero eps : EReal) (x w : ι → EReal) (h : ι) : EReal :=
  Ideal.div
    (Ideal.div (Ideal.exp (x h - max ninf (rowMax ninf x))) (zero + ∑ k, Ideal.exp (x k - max ninf (rowMax ninf x))) * w h)
    ((zero + ∑ j, Ideal.div (Ideal.exp (x j - max ninf (rowMax ninf x))) (zero + ∑ k, Ideal.exp (x k - max ninf (rowMax ninf x))) * w j) + eps)

/-- The maximum of a non-empty row of real numbers, folded from minus infinity, is a real number. -/
theorem rowMax_isReal [Nonempty ι] {x : ι → EReal} (hx : ∀ k, IsReal (x k)) : IsReal (rowMax ⊥ x) := by
  have hne_top : rowMax ⊥ x ≠ ⊤ := by
    refine ne_of_lt ?_
    unfold rowMax
    rw [Finset.fold_max_lt]
    refine ⟨bot_lt_top, fun k _ => ?_⟩
    obtain ⟨r, hr⟩ := hx k
    rw [hr]; exact EReal.coe_lt_top r
  have hne_bot : rowMax ⊥ x ≠ ⊥ := by
    refine ne_of_gt ?_
    unfold rowMax
    rw [Finset.lt_fold_max]
    obtain ⟨k⟩ := ‹Nonempty ι›
    refine Or.inr ⟨k, Finset.mem_univ k, ?_⟩
    obtain ⟨r, hr⟩ := hx k
    rw [hr]; exact EReal.bot_lt_coe r
  lift rowMax ⊥ x to ℝ using ⟨hne_top, hne_bot⟩ with r hr
  exact ⟨r, rfl⟩

/-- Dividing numerator and denominator by one positive real does not change a quotient, a vanishing denominator
    included: the sign of the numerator is kept. -/
theorem div_scale (a d D : ℝ) (hD : 0 < D) : Ideal.div ((a / D : ℝ) : EReal) ((d / D : ℝ) : EReal) = Ideal.div (a : EReal) (d : EReal) := by
  unfold Ideal.div
  by_cases hd : d = 0
  · subst hd
    rw [zero_div, EReal.coe_zero, if_pos rfl, if_pos rfl]
    have : (0 : EReal) < ((a / D : ℝ) : EReal) ↔ (0 : EReal) < (a : EReal) := by
      rw [EReal.coe_pos, EReal.coe_pos]; exact div_pos_iff_of_pos_right hD
    by_cases ha : (0 : EReal) < (a : EReal)
    · rw [if_pos ha, if_pos (this.mpr ha)]
    · rw [if_neg ha, if_neg (fun h => ha (this.mp h))]
  · have hd' : d / D ≠ 0 := div_ne_zero hd hD.ne'
    rw [if_neg (by exact_mod_cast hd'), if_neg (by exact_mod_cast hd), ← EReal.coe_inv, ← EReal.coe_inv, ← EReal.coe_mul,
      ← EReal.coe_mul]
    congr 1
    field_simp

/-- THE LAW: over a non-empty row of real scores and real mask entries, with a real ε, the two arrangements agree. -/
theorem attnR_eq_attnK [Nonempty ι] {eps : EReal} {x w : ι → EReal} (hx : ∀ k, IsReal (x k)) (hw : ∀ k, IsReal (w k))
    (heps : IsReal eps) (h : ι) : attnR ⊥ 0 eps x w h = attnK ⊥ eps x w h := by
  obtain ⟨M, hM⟩ := rowMax_isReal hx
  choose xr hxr using hx
  choose wr hwr using hw
  obtain ⟨ε, rfl⟩ := heps
  have he : ∀ k, Ideal.exp (x k - rowMax ⊥ x) = ((Real.exp (xr k - M) : ℝ) : EReal) := fun k => by
    rw [hM, hxr k, ← EReal.coe_sub, Ideal.exp_coe]
  have hD : (0 : ℝ) < ∑ k, Real.exp (xr k - M) := Finset.sum_pos (fun k _ => Real.exp_pos _) Finset.univ_nonempty
  unfold attnR attnK
  rw [max_eq_right bot_le]
  simp only [he, hwr, zero_add, coe_sum, Ideal.div_coe hD.ne', ← EReal.coe_mul, ← EReal.coe_add]
  generalize (∑ k, Real.exp (xr k - M)) = D at hD ⊢
  have h1 : Real.exp (xr h - M) * (1 / D) * wr h = (Real.exp (xr h - M) * wr h) / D := by ring
  have h2 : (∑ k, Real.exp (xr k - M) * (1 / D) * wr k + ε) = (∑ k, Real.exp (xr k - M) * wr k + ε * D) / D := by
    rw [add_div, mul_div_assoc, div_self hD.ne', mul_one, Finset.sum_div]
    exact congrArg (· + ε) (Finset.sum_congr rfl fun k _ => by ring)
  rw [h1, h2, div_scale _ _ _ hD]

end Cert.Attend

end
-- ==== Proof.Attend.lean ====
/-
  The masked cross-attention block as one function of its inputs, index by index.

  Given a score matrix `s` (rows `p`, columns `h`), the value matrix `B` (rows `h`), a mask over the columns
  (`wrow`) and a mask over the rows (`wcol`), the block's entry at `(p, d)` is
  `(∑ h, a p h · B h d) · wcol p`, where row `p` of `a` is the masked, renormalised softmax of the scaled scores
  `s p h · wrow h` with mask `wrow`. `attendK` takes the softmax in the one-division arrangement, `attendR` in the
  two-division arrangement; over real scores and masks they agree, row by row, by the softmax law.
-/
import proofs.«107936_j55293408969033_2_alg».proof.Proof.SoftmaxLaw

open scoped BigOperators

noncomputable section

namespace Cert.Attend

open Idealize.ShloMosaic

variable {a n c : ℕ}

/-- The block with the one-division softmax. -/
def attendK (ninf eps : EReal) (s : Fin a → Fin n → EReal) (B : Fin n → Fin c → EReal) (wrow : Fin n → EReal)
    (wcol : Fin a → EReal) (p : Fin a) (d : Fin c) : EReal :=
  (∑ h : Fin n, attnK ninf eps (fun k => s p k * wrow k) wrow h * B h d) * wcol p

/-- The block with the two-division softmax. -/
def attendR (ninf zero eps : EReal) (s : Fin a → Fin n → EReal) (B : Fin n → Fin c → EReal) (wrow : Fin n → EReal)
    (wcol : Fin a → EReal) (p : Fin a) (d : Fin c) : EReal :=
  (∑ h : Fin n, attnR ninf zero eps (fun k => s p k * wrow k) wrow h * B h d) * wcol p

/-- Over real scores and a real column mask, with a real ε and at least one column, the two blocks are equal: the same
    sum over `h`, term by term, by the softmax law on row `p`. -/
theorem attendR_eq_attendK [Nonempty (Fin n)] {eps : EReal} {s : Fin a → Fin n → EReal} (B : Fin n → Fin c → EReal)
    {wrow : Fin n → EReal} (wcol : Fin a → EReal) (hs : ∀ p k, IsReal (s p k)) (hw : ∀ k, IsReal (wrow k))
    (heps : IsReal eps) (p : Fin a) (d : Fin c) :
    attendR ⊥ 0 eps s B wrow wcol p d = attendK ⊥ eps s B wrow wcol p d := by
  unfold attendR attendK
  refine congrArg (· * wcol p) (Finset.sum_congr rfl fun h _ => congrArg (· * B h d) ?_)
  exact attnR_eq_attnK (fun k => (hs p k).mul (hw k)) hw heps h

/-- A score: the inner product of a row of `X` with a row of `Y`; real when both rows are. -/
theorem isReal_score {m : ℕ} {X Y : Fin m → EReal} (hX : ∀ d, IsReal (X d)) (hY : ∀ d, IsReal (Y d)) :
    IsReal (∑ d : Fin m, X d * Y d) :=
  IsReal.sum _ fun d => (hX d).mul (hY d)

/-- The inner product does not depend on the order of its factors. -/
theorem score_comm {m : ℕ} (X Y : Fin m → EReal) : (∑ d : Fin m, X d * Y d) = ∑ d : Fin m, Y d * X d :=
  Finset.sum_congr rfl fun d _ => mul_comm _ _

end Cert.Attend

end
-- ==== Proof.LibColumns.lean ====
/-
  Layout operations around a `keepdims` column, read at an index given by coordinates, at any extents:
  a vector `[a]` recast as the column `[a, 1]`; a column `[a, 1]` broadcast along its rows to `[a, b]`; a matrix
  `[a, b]` recast with a trailing unit axis, `[a, b, 1]`; two such arrays joined along that axis into `[a, b, 2]`
  (a stack of two columns); and, over the extended reals, the lane sum of a matrix along its second axis read as the
  sum of one row. Each is the general read-at-an-index lemma of the value library with the index arithmetic done.
-/
import Idealize.ShloMosaic.Lib.Pipeline.Value
import Idealize.ShloMosaic.Lib.ValueIdx
import Idealize.ShloMosaic.PureOps.Ideal.Laws

open scoped BigOperators

namespace Cert.Lib.Columns

open Idealize.ShloMosaic Idealize.ShloMosaic.ValueIdx

variable {α : Type}

/-- An `[a]` array cast to the column `[a, 1]` reads, at `(i, u)`, the operand at `i`, whatever the unit coordinate `u`:
    both have row-major position `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- An `[a, b]` array cast to `[a, b, 1]` reads, at `(p, c, u)`, the operand at `(p, c)`: both have row-major position
    `p · b + c`. -/
theorem shapeCast_ab_ab1_apply {a b : ℕ} (x : (⟨2, ![a, b]⟩ : Shape).Idx → α) (h : (⟨2, ![a, b]⟩ : Shape).ShapeCasts ⟨3, ![a, b, 1]⟩)
    (p : Fin a) (c : Fin b) (u : Fin 1) : shapeCast ⟨3, ![a, b, 1]⟩ x h (ix3 p c u) = x (ix2 p c) :=
  shapeCast_apply x h _ _ (by
    have hu : u.val = 0 := by omega
    rw [Shape.rowMajor_val_two, Shape.rowMajor_val_three]
    show p.val * b + c.val = (p.val * b + c.val) * 1 + u.val
    rw [hu, Nat.mul_one, Nat.add_zero])

/-- Two `[a, b, 1]` arrays joined along the last axis into `[a, b, 2]`: at `(p, c, l)` the first array's entry at `(p, c)`
    when `l` is `0`, the second's when `l` is `1` — the last coordinate selects the array, the others pass through. -/
theorem concatenate_ab1_ab1_apply {a b : ℕ} (x₁ x₂ : (⟨3, ![a, b, 1]⟩ : Shape).Idx → α)
    (h : Shape.Concatenates [(⟨3, ![a, b, 1]⟩ : Shape), ⟨3, ![a, b, 1]⟩] ⟨3, ![a, b, 2]⟩ (2 : Fin 3)) (p : Fin a) (c : Fin b) (l : Fin 2) :
    concatenate ⟨3, ![a, b, 2]⟩ (2 : Fin 3) [⟨⟨3, ![a, b, 1]⟩, x₁⟩, ⟨⟨3, ![a, b, 1]⟩, x₂⟩] h (ix3 p c l)
      = if l.val = 0 then x₁ (ix3 p c (0 : Fin 1)) else x₂ (ix3 p c (0 : Fin 1)) := by
  match l with
  | ⟨0, h0⟩ =>
    refine (concatenate_pair_apply_left (t := ⟨3, ![a, b, 2]⟩) (2 : Fin 3) x₁ x₂ h (ix3 p c (⟨0, h0⟩ : Fin 2)) rfl
      (ix3 p c (0 : Fin 1)) (fun bx => by
        match bx with | ⟨0, _⟩ => rfl | ⟨1, _⟩ => rfl | ⟨2, _⟩ => rfl)).trans ?_
    exact (if_pos rfl).symm
  | ⟨1, h1⟩ =>
    refine (concatenate_pair_apply_right (t := ⟨3, ![a, b, 2]⟩) (2 : Fin 3) x₁ x₂ h (ix3 p c (⟨1, h1⟩ : Fin 2)) rfl rfl
      (ix3 p c (0 : Fin 1)) (fun bx hb => by
        match bx with | ⟨0, _⟩ => rfl | ⟨1, _⟩ => rfl | ⟨2, _⟩ => exact absurd rfl hb) rfl).trans ?_
    exact (if_neg Nat.one_ne_zero).symm

/-- Over the extended reals, the lane sum of an `[a, b]` array along its second axis is, at row `r`, the sum of that
    row's `b` entries: the index the reduction inserts coordinate `k` into is `(r, k)`. -/
theorem multiReduction_add_ab_a_apply {φ : FTy} {a b : ℕ} (src : FVec Ideal ⟨2, ![a, b]⟩ φ) (acc : BitVec φ.bits)
    (h : (⟨2, ![a, b]⟩ : Shape).Reduces [(1 : Fin 2)] ⟨1, ![a]⟩) (hφ : FKind.Formats φ) (hacc : acc = FKind.add.neutral φ hφ)
    (r : Fin a) :
    multiReduction .add [(1 : Fin 2)] ⟨1, ![a]⟩ src acc h hφ hacc (ix1 r) = ∑ k : Fin b, src (ix2 r k) := by
  rw [Ideal.multiReduction_add_single]
  exact Finset.sum_congr rfl fun k _ => congrArg src (funext fun c => Fin.ext (by
    match c with | ⟨0, _⟩ => rfl | ⟨1, _⟩ => rfl))

end Cert.Lib.Columns
-- ==== Proof.LibRowMax.lean ====
/-
  A row's maximum read at an index given by coordinates, over the extended reals, at any extents: the lane maximum of a
  matrix `[a, b]` along its second axis, and the maximum of an array `[a, b, c]` along its last axis taken by a
  one-operand reduction from an initial value, are each the fold of `max` over the reduced axis's coordinates of the
  row's entries — the inserted index is `(r, k)`, respectively `(p, r, k)`.
-/
import Idealize.ShloMosaic.Lib.ValueIdx
import Idealize.ShloMosaic.PureOps.Ideal.Laws

open scoped BigOperators

namespace Cert.Lib.RowMax

open Idealize.ShloMosaic Idealize.ShloMosaic.ValueIdx

/-- Over the extended reals, the lane maximum of an `[a, b]` array along its second axis is, at row `r`, the fold of
    `max` from the accumulator's value over that row's `b` entries. -/
theorem multiReduction_maximumf_ab_a_apply {φ : FTy} {a b : ℕ} (src : FVec Ideal ⟨2, ![a, b]⟩ φ) (acc : BitVec φ.bits)
    (h : (⟨2, ![a, b]⟩ : Shape).Reduces [(1 : Fin 2)] ⟨1, ![a]⟩) (hφ : FKind.Formats φ)
    (hacc : acc = FKind.maximumf.neutral φ hφ) (r : Fin a) :
    multiReduction .maximumf [(1 : Fin 2)] ⟨1, ![a]⟩ src acc h hφ hacc (ix1 r)
      = (Finset.univ : Finset (Fin b)).fold max (FloatOps.ofBits φ acc) (fun k => src (ix2 r k)) := by
  rw [Ideal.multiReduction_maximumf_single]
  exact congrArg ((Finset.univ : Finset (Fin b)).fold max (FloatOps.ofBits φ acc)) (funext fun k => congrArg src (funext fun c => Fin.ext (by
    match c with | ⟨0, _⟩ => rfl | ⟨1, _⟩ => rfl)))

/-- Over the extended reals, a one-operand reduction by `max` of an `[a, b, c]` array along its last axis is, at
    `(p, r)`, the fold of `max` from the initial value over the `c` entries of that row. -/
theorem hostReduce_maximumf_abc_ab_apply {φ : FTy} {a b c : ℕ} {u : Shape} (x : (⟨3, ![a, b, c]⟩ : Shape).Idx → Ideal φ)
    (init : u.Idx → Ideal φ) (h' : (⟨3, ![a, b, c]⟩ : Shape).ReducesTo [(2 : Fin 3)] ⟨2, ![a, b]⟩)
    (h : (⟨3, ![a, b, c]⟩ : Shape).Reduces [(2 : Fin 3)] ⟨2, ![a, b]⟩) (hu : 0 < u.numel) (p : Fin a) (r : Fin b) :
    Host.reduce (FloatOps.maximumf (F := Ideal) (φ := φ)) x init h' hu (ix2 p r)
      = (Finset.univ : Finset (Fin c)).fold max (init (Shape.Idx.first hu)) (fun k => x (ix3 p r k)) := by
  rw [Host.reduce_eq_fold_single (FloatOps.maximumf (F := Ideal) (φ := φ)) x init h' h hu (ix2 p r)]
  exact congrArg ((Finset.univ : Finset (Fin c)).fold max (init (Shape.Idx.first hu))) (funext fun k => congrArg x (funext fun d => Fin.ext (by
    match d with | ⟨0, _⟩ => rfl | ⟨1, _⟩ => rfl | ⟨2, _⟩ => rfl)))

end Cert.Lib.RowMax
-- ==== Proof.Block.lean ====
/-
  One block of the kernel, read at an index.

  The kernel's body computes, from two 512×600 matrices `A`, `B`, a mask row `wrow` and a second mask row `wcol`,
  the scores `A · Bᵀ`, their masked renormalised softmax along each row (one division), the product of that with `B`,
  and scales row `p` by `wcol p`. Both of its stores have this form, with the roles of the two matrices and of the two
  masks exchanged. Here that value is read entry by entry as the attention block of the specification.
-/
import proofs.«107936_j55293408969033_2_alg».proof.Proof.Gen.KernelIdeal.Skeleton
import proofs.«107936_j55293408969033_2_alg».proof.Proof.Attend
import proofs.«107936_j55293408969033_2_alg».proof.Proof.LibColumns
import proofs.«107936_j55293408969033_2_alg».proof.Proof.LibRowMax
import Idealize.ShloMosaic.Lib.ValueLayout
import Idealize.ShloMosaic.Lib.ValueIdx
import Idealize.ShloMosaic.Lib.Pipeline.Value
import Idealize.ShloMosaic.PureOps.Ideal.Laws

open scoped BigOperators

noncomputable section

namespace Cert.Attend.Kernel

open Cert.KernelIdeal Cert.KernelIdeal.Gen Idealize.ShloMosaic Idealize.ShloMosaic.ValueIdx Cert.Attend

/-- The scores' dot: both operands contracted along their second axis. -/
abbrev D1 : DotDims S512x600 S512x600 S512x512 := dot_S512x600_S512x600_S512x512_1_1_0_0_n_n
/-- The weighted sum's dot: an ordinary matrix product. -/
abbrev D2 : DotDims S512x512 S512x600 S512x600 := dot_S512x512_S512x600_S512x600_1_0_0_1_n_n

/-! ## Where each dot reads its operands -/

theorem D1_lhs0 (i : S512x512.Idx) (q : D1.contr.Idx) : (D1.lhsIdx i q 0).val = (i 0).val := by
  unfold DotDims.lhsIdx
  rw [dif_neg (show ¬(0 : Fin S512x600.rank) ∈ D1.lhsBatch by decide), dif_pos (show (0 : Fin S512x600.rank) ∈ D1.lhsNonContracting by decide)]
  rfl
theorem D1_lhs1 (i : S512x512.Idx) (q : D1.contr.Idx) : (D1.lhsIdx i q 1).val = (q ⟨0, by decide⟩).val :=
  D1.lhsIdx_val_of_single rfl i q
theorem D1_rhs0 (i : S512x512.Idx) (q : D1.contr.Idx) : (D1.rhsIdx i q 0).val = (i 1).val := by
  unfold DotDims.rhsIdx
  rw [dif_neg (show ¬(0 : Fin S512x600.rank) ∈ D1.rhsBatch by decide), dif_pos (show (0 : Fin S512x600.rank) ∈ D1.rhsNonContracting by decide)]
  rfl
theorem D1_rhs1 (i : S512x512.Idx) (q : D1.contr.Idx) : (D1.rhsIdx i q 1).val = (q ⟨0, by decide⟩).val :=
  D1.rhsIdx_val_of_single rfl i q

theorem D2_lhs0 (i : S512x600.Idx) (q : D2.contr.Idx) : (D2.lhsIdx i q 0).val = (i 0).val := by
  unfold DotDims.lhsIdx
  rw [dif_neg (show ¬(0 : Fin S512x512.rank) ∈ D2.lhsBatch by decide), dif_pos (show (0 : Fin S512x512.rank) ∈ D2.lhsNonContracting by decide)]
  rfl
theorem D2_lhs1 (i : S512x600.Idx) (q : D2.contr.Idx) : (D2.lhsIdx i q 1).val = (q ⟨0, by decide⟩).val :=
  D2.lhsIdx_val_of_single rfl i q
theorem D2_rhs0 (i : S512x600.Idx) (q : D2.contr.Idx) : (D2.rhsIdx i q 0).val = (q ⟨0, by decide⟩).val :=
  D2.rhsIdx_val_of_single rfl i q
theorem D2_rhs1 (i : S512x600.Idx) (q : D2.contr.Idx) : (D2.rhsIdx i q 1).val = (i 1).val := by
  unfold DotDims.rhsIdx
  rw [dif_neg (show ¬(1 : Fin S512x600.rank) ∈ D2.rhsBatch by decide), dif_pos (show (1 : Fin S512x600.rank) ∈ D2.rhsNonContracting by decide)]
  rfl

/-- The scores: entry `(p, h)` is the inner product of row `p` of `A` with row `h` of `B`. -/
theorem scores_apply (A B : FVec Ideal S512x600 .bf16) (p h : Fin 512) :
    matmul D1 none A B (constant (F := Ideal) S512x512 .f32 0x00000000#32) (ix2 p h) = ∑ d : Fin 600, A (ix2 p d) * B (ix2 h d) := by
  simp only [matmul]
  rw [Ideal.matmul_constant_zero_apply, ← Equiv.sum_comp (contrEquiv1 D1 600 rfl rfl).symm]
  refine Finset.sum_congr rfl fun k _ => ?_
  have hk := contrEquiv1_symm_val D1 600 rfl rfl k
  have el : D1.lhsIdx (ix2 p h) ((contrEquiv1 D1 600 rfl rfl).symm k) = ix2 p k := funext fun a => Fin.ext (by
    match a with
    | ⟨0, _⟩ => exact D1_lhs0 _ _
    | ⟨1, _⟩ => exact (D1_lhs1 _ _).trans hk)
  have er : D1.rhsIdx (ix2 p h) ((contrEquiv1 D1 600 rfl rfl).symm k) = ix2 h k := funext fun a => Fin.ext (by
    match a with
    | ⟨0, _⟩ => exact D1_rhs0 _ _
    | ⟨1, _⟩ => exact (D1_rhs1 _ _).trans hk)
  rw [el, er]

/-- The weighted sum: entry `(p, d)` is the sum over `h` of `W (p, h) · B (h, d)`. -/
theorem weighted_apply (W : FVec Ideal S512x512 .bf16) (B : FVec Ideal S512x600 .bf16) (p : Fin 512) (d : Fin 600) :
    matmul D2 none W B (constant (F := Ideal) S512x600 .f32 0x00000000#32) (ix2 p d) = ∑ h : Fin 512, W (ix2 p h) * B (ix2 h d) := by
  simp only [matmul]
  rw [Ideal.matmul_constant_zero_apply, ← Equiv.sum_comp (contrEquiv1 D2 512 rfl rfl).symm]
  refine Finset.sum_congr rfl fun k _ => ?_
  have hk := contrEquiv1_symm_val D2 512 rfl rfl k
  have el : D2.lhsIdx (ix2 p d) ((contrEquiv1 D2 512 rfl rfl).symm k) = ix2 p k := funext fun a => Fin.ext (by
    match a with
    | ⟨0, _⟩ => exact D2_lhs0 _ _
    | ⟨1, _⟩ => exact (D2_lhs1 _ _).trans hk)
  have er : D2.rhsIdx (ix2 p d) ((contrEquiv1 D2 512 rfl rfl).symm k) = ix2 k d := funext fun a => Fin.ext (by
    match a with
    | ⟨0, _⟩ => exact (D2_rhs0 _ _).trans hk
    | ⟨1, _⟩ => exact D2_rhs1 _ _)
  rw [el, er]

/-! ## The softmax block -/

/-- The exponential at an index is the exponential of the element. -/
theorem exp_apply {s : Shape} {φ : FTy} (a : FVec Ideal s φ) (i : s.Idx) : exp a i = Ideal.exp (a i) := rfl

/-- A row's lane sum kept as a column. -/
def rowSum (X : FVec Ideal S512x512 .f32) : FVec Ideal S512x1 .f32 :=
  shapeCast S512x1 (multiReduction .add [1] S512 X 0x00000000#32 reduces_S512x512_S512 (.inl rfl) rfl) shapeCasts_S512_S512x1

theorem rowSum_apply (X : FVec Ideal S512x512 .f32) (p : Fin 512) (u : Fin 1) :
    rowSum X (ix2 p u) = ∑ k : Fin 512, X (ix2 p k) :=
  (Cert.Lib.Columns.shapeCast_a_a1_apply _ shapeCasts_S512_S512x1 p u).trans
    (Cert.Lib.Columns.multiReduction_add_ab_a_apply X 0x00000000#32 reduces_S512x512_S512 (.inl rfl) rfl p)

/-- A row's lane maximum, spread back over the row. -/
def rowMaxB (X : FVec Ideal S512x512 .f32) : FVec Ideal S512x512 .f32 :=
  broadcastTo S512x512 (shapeCast S512x1 (multiReduction .maximumf [1] S512 X 0xFF800000#32 reduces_S512x512_S512 (.inl rfl) rfl) shapeCasts_S512_S512x1) broadcasts_S512x1_S512x512

theorem rowMaxB_apply (X : FVec Ideal S512x512 .f32) (p h : Fin 512) :
    rowMaxB X (ix2 p h) = rowMax (Ideal.ofBits .f32 0xFF800000#32) (fun k : Fin 512 => X (ix2 p k)) :=
  (Cert.Lib.Columns.broadcastTo_a1_ab_apply _ broadcasts_S512x1_S512x512 p h).trans
    ((Cert.Lib.Columns.shapeCast_a_a1_apply _ shapeCasts_S512_S512x1 p (0 : Fin 1)).trans
      (Cert.Lib.RowMax.multiReduction_maximumf_ab_a_apply X 0xFF800000#32 reduces_S512x512_S512 (.inl rfl) rfl p))

/-- The masked renormalised softmax of the scores `S` with the mask row `wrow`, as the kernel computes it. -/
def softBlock (S : FVec Ideal S512x512 .f32) (wrow : FVec Ideal S1x512 .f32) : FVec Ideal S512x512 .f32 :=
  divf (mulf (exp (subf (mulf S (broadcastTo S512x512 wrow broadcasts_S1x512_S512x512)) (rowMaxB (mulf S (broadcastTo S512x512 wrow broadcasts_S1x512_S512x512))))) (broadcastTo S512x512 wrow broadcasts_S1x512_S512x512))
    (broadcastTo S512x512
      (addf (rowSum (mulf (exp (subf (mulf S (broadcastTo S512x512 wrow broadcasts_S1x512_S512x512)) (rowMaxB (mulf S (broadcastTo S512x512 wrow broadcasts_S1x512_S512x512))))) (broadcastTo S512x512 wrow broadcasts_S1x512_S512x512)))
        (mulf (broadcast S512x1 (Scalar.ofBits (F := Ideal) .f32 0x29E12E13#32)) (rowSum (exp (subf (mulf S (broadcastTo S512x512 wrow broadcasts_S1x512_S512x512)) (rowMaxB (mulf S (broadcastTo S512x512 wrow broadcasts_S1x512_S512x512))))))))
      broadcasts_S512x1_S512x512)

theorem softBlock_apply (S : FVec Ideal S512x512 .f32) (wrow : FVec Ideal S1x512 .f32) (p h : Fin 512) :
    softBlock S wrow (ix2 p h)
      = attnK (Ideal.ofBits .f32 0xFF800000#32) (Ideal.ofBits .f32 0x29E12E13#32) (fun k : Fin 512 => S (ix2 p k) * wrow (ix2 (0 : Fin 1) k))
          (fun k : Fin 512 => wrow (ix2 (0 : Fin 1) k)) h := by
  have hb : ∀ (q k : Fin 512), broadcastTo S512x512 wrow broadcasts_S1x512_S512x512 (ix2 q k) = wrow (ix2 (0 : Fin 1) k) :=
    fun q k => broadcastTo_1b_ab_apply wrow broadcasts_S1x512_S512x512 q k
  have he : Scalar.ofBits (F := Ideal) .f32 0x29E12E13#32 = Ideal.ofBits .f32 0x29E12E13#32 := rfl
  unfold softBlock attnK
  simp only [divf_apply, mulf_apply, addf_apply, subf_apply, exp_apply, broadcast_apply, hb, rowMaxB_apply, rowSum_apply,
    Cert.Lib.Columns.broadcastTo_a1_ab_apply, he]

/-! ## The whole payload -/

theorem pay1_apply (v4 v5 : FVec Ideal S512x600 .bf16) (v7 v9 : FVec Ideal S1x512 .f32) (u : Fin 1) (p : Fin 512) (d : Fin 600) :
    k0_pay1 (F := Ideal) v4 v5 v7 v9 (ix3 u p d)
      = attendK (Ideal.ofBits .f32 0xFF800000#32) (Ideal.ofBits .f32 0x29E12E13#32)
          (fun (q h : Fin 512) => ∑ e : Fin 600, v5 (ix2 q e) * v4 (ix2 h e)) (fun (h : Fin 512) (e : Fin 600) => v4 (ix2 h e))
          (fun h : Fin 512 => v9 (ix2 (0 : Fin 1) h)) (fun q : Fin 512 => v7 (ix2 (0 : Fin 1) q)) p d := by
  have hpay : k0_pay1 (F := Ideal) v4 v5 v7 v9
      = shapeCast S1x512x600 (mulf (matmul D2 none (truncf .bf16 (softBlock (matmul D1 none v5 v4 (constant (F := Ideal) S512x512 .f32 0x00000000#32)) v9) bitsLt_bf16_f32) v4 (constant (F := Ideal) S512x600 .f32 0x00000000#32))
          (broadcastTo S512x600 (transpose S512x1 [1, 0] v7 transposes_S1x512_p1_0_S512x1) broadcasts_S512x1_S512x600)) shapeCasts_S512x600_S1x512x600 := rfl
  rw [hpay]
  refine (shapeCast_ab_1ab_apply _ shapeCasts_S512x600_S1x512x600 u p d).trans ?_
  unfold attendK
  simp only [mulf_apply, weighted_apply, truncf_apply, softBlock_apply, scores_apply,
    Cert.Lib.Columns.broadcastTo_a1_ab_apply]
  exact congrArg (_ * ·) (transpose_ix2_apply v7 transposes_S1x512_p1_0_S512x1 p (0 : Fin 1))

/-! ## The loaded blocks, and the two stores over them -/

/-- A loaded `[1, 512, 600]` block with its unit axis dropped (and narrowed, which changes nothing here). -/
theorem pay2_apply (v0 : Vec Ideal S1x512x600 .f32) (q : Fin 512) (e : Fin 600) :
    k0_pay2 (F := Ideal) v0 (ix2 q e) = v0 (ix3 (0 : Fin 1) q e) :=
  shapeCast_1ab_ab_apply v0 shapeCasts_S1x512x600_S512x600 q e

theorem pay3_apply (v2 : Vec Ideal S1x512x600 .f32) (q : Fin 512) (e : Fin 600) :
    k0_pay3 (F := Ideal) v2 (ix2 q e) = v2 (ix3 (0 : Fin 1) q e) :=
  shapeCast_1ab_ab_apply v2 shapeCasts_S1x512x600_S512x600 q e

/-- A loaded `[1, 1, 512]` mask block with its leading unit axis dropped. -/
theorem pay4_apply (v6 : Vec Ideal S1x1x512 .f32) (u : Fin 1) (h : Fin 512) :
    k0_pay4 (F := Ideal) v6 (ix2 u h) = v6 (ix3 (0 : Fin 1) u h) :=
  shapeCast_1ab_ab_apply v6 shapeCasts_S1x1x512_S1x512 u h

theorem pay5_apply (v8 : Vec Ideal S1x1x512 .f32) (u : Fin 1) (h : Fin 512) :
    k0_pay5 (F := Ideal) v8 (ix2 u h) = v8 (ix3 (0 : Fin 1) u h) :=
  shapeCast_1ab_ab_apply v8 shapeCasts_S1x1x512_S1x512 u h

/-- The first store: the first block's rows attend to the second block, masked along the rows of the second by the
    third block and scaled by the fourth. -/
theorem store0_apply (x0 x1 : Vec Ideal S1x512x600 .f32) (x2 x3 : Vec Ideal S1x1x512 .f32) (u : Fin 1) (p : Fin 512) (d : Fin 600) :
    k0_pay6 (F := Ideal) x0 x1 x2 x3 (ix3 u p d)
      = attendK (Ideal.ofBits .f32 0xFF800000#32) (Ideal.ofBits .f32 0x29E12E13#32)
          (fun (q h : Fin 512) => ∑ e : Fin 600, x0 (ix3 (0 : Fin 1) q e) * x1 (ix3 (0 : Fin 1) h e))
          (fun (h : Fin 512) (e : Fin 600) => x1 (ix3 (0 : Fin 1) h e))
          (fun h : Fin 512 => x2 (ix3 (0 : Fin 1) (0 : Fin 1) h)) (fun q : Fin 512 => x3 (ix3 (0 : Fin 1) (0 : Fin 1) q)) p d := by
  rw [show k0_pay6 (F := Ideal) x0 x1 x2 x3 = k0_pay1 (k0_pay3 x1) (k0_pay2 x0) (k0_pay5 x3) (k0_pay4 x2) from rfl, pay1_apply]
  simp only [pay2_apply, pay3_apply, pay4_apply, pay5_apply]

/-- The second store: the same with the two matrices and the two masks exchanged. -/
theorem store1_apply (x0 x1 : Vec Ideal S1x512x600 .f32) (x2 x3 : Vec Ideal S1x1x512 .f32) (u : Fin 1) (p : Fin 512) (d : Fin 600) :
    k0_pay1 (F := Ideal) (k0_pay2 x0) (k0_pay3 x1) (k0_pay4 x2) (k0_pay5 x3) (ix3 u p d)
      = attendK (Ideal.ofBits .f32 0xFF800000#32) (Ideal.ofBits .f32 0x29E12E13#32)
          (fun (q h : Fin 512) => ∑ e : Fin 600, x1 (ix3 (0 : Fin 1) q e) * x0 (ix3 (0 : Fin 1) h e))
          (fun (h : Fin 512) (e : Fin 600) => x0 (ix3 (0 : Fin 1) h e))
          (fun h : Fin 512 => x3 (ix3 (0 : Fin 1) (0 : Fin 1) h)) (fun q : Fin 512 => x2 (ix3 (0 : Fin 1) (0 : Fin 1) q)) p d := by
  rw [pay1_apply]
  simp only [pay2_apply, pay3_apply, pay4_apply, pay5_apply]

end Cert.Attend.Kernel

end
-- ==== Proof.Spec.lean ====
/-
  The result arrays as whole-array functions of the argument arrays.

  For a batch `b`, `weightedAt X Y mrow mcol b p d` is the attention block at `(p, d)` whose scores are the inner
  products of the rows of `X (b, ·, ·)` with the rows of `Y (b, ·, ·)`, whose values are `Y (b, ·, ·)`, whose softmax is
  masked along the rows of `Y` by `mrow (b, ·)` and whose rows are scaled by `mcol (b, ·)`. The first result is
  `weighted` of (premise, hypothesis, hypothesis mask, premise mask); the second exchanges the two matrices and the two
  masks.
-/
import proofs.«107936_j55293408969033_2_alg».proof.Proof.Attend
import Idealize.ShloMosaic.Lib.ValueIdx

open scoped BigOperators

noncomputable section

namespace Cert.Attend

open Idealize.ShloMosaic Idealize.ShloMosaic.ValueIdx

/-- The result at batch `b`, row `p`, feature `d`. -/
def weightedAt (ninf eps : EReal) (X Y : (⟨3, ![64, 512, 600]⟩ : Shape).Idx → EReal) (mrow mcol : (⟨2, ![64, 512]⟩ : Shape).Idx → EReal)
    (b : Fin 64) (p : Fin 512) (d : Fin 600) : EReal :=
  attendK ninf eps (fun (q h : Fin 512) => ∑ e : Fin 600, X (ix3 b q e) * Y (ix3 b h e)) (fun (h : Fin 512) (e : Fin 600) => Y (ix3 b h e))
    (fun h : Fin 512 => mrow (ix2 b h)) (fun q : Fin 512 => mcol (ix2 b q)) p d

/-- The result array. -/
def weighted (ninf eps : EReal) (X Y : (⟨3, ![64, 512, 600]⟩ : Shape).Idx → EReal) (mrow mcol : (⟨2, ![64, 512]⟩ : Shape).Idx → EReal) :
    (⟨3, ![64, 512, 600]⟩ : Shape).Idx → EReal :=
  fun i => weightedAt ninf eps X Y mrow mcol (i 0) (i 1) (i 2)

theorem weighted_ix3 (ninf eps : EReal) (X Y : (⟨3, ![64, 512, 600]⟩ : Shape).Idx → EReal) (mrow mcol : (⟨2, ![64, 512]⟩ : Shape).Idx → EReal)
    (b : Fin 64) (p : Fin 512) (d : Fin 600) :
    weighted ninf eps X Y mrow mcol (ix3 b p d) = weightedAt ninf eps X Y mrow mcol b p d := rfl

end Cert.Attend

end
-- ==== Proof.LibHostRows.lean ====
/-
  Host operations around a row statistic of a rank-3 array, read at an index given by coordinates, at any extents: a
  scalar broadcast to any shape; an array `[a, c]` given a unit middle axis, `[a, 1, c]`; an array `[a, 1, c]`
  broadcast along its unit middle axis to `[a, b, c]`; an array
  `[a, b]` given a trailing unit axis, `[a, b, 1]`; an array `[a, b, 1]` broadcast along its unit last axis to
  `[a, b, c]`; and, over the extended reals, the host's sum of an array `[a, b, c]` along its last axis, read as the
  initial value plus the sum of one row. Each is the general read-at-an-index lemma of the value library with the index
  arithmetic done.
-/
import Idealize.ShloMosaic.Lib.Pipeline.Value
import Idealize.ShloMosaic.Lib.ValueIdx
import Idealize.ShloMosaic.PureOps.Ideal.Laws

open scoped BigOperators

namespace Cert.Lib.HostRows

open Idealize.ShloMosaic Idealize.ShloMosaic.ValueIdx

variable {α : Type}

/-- A scalar broadcast to any shape reads the scalar everywhere. -/
theorem broadcastInDim_scalar_apply {t : Shape} (dims : Fin (⟨0, ![]⟩ : Shape).rank → Fin t.rank)
    (h : (⟨0, ![]⟩ : Shape).BroadcastsInDim t dims) (x : (⟨0, ![]⟩ : Shape).Idx → α) (j : t.Idx) :
    broadcastInDim t dims h x j = x ix0 :=
  broadcastInDim_apply dims h x j ix0 fun a => a.elim0

/-- An `[a, c]` array given a unit middle axis reads, at `(i, u, k)`, the operand at `(i, k)`. -/
theorem broadcastInDim_ac_a1c_apply {a c : ℕ} (x : (⟨2, ![a, c]⟩ : Shape).Idx → α)
    (h : (⟨2, ![a, c]⟩ : Shape).BroadcastsInDim ⟨3, ![a, 1, c]⟩ ![0, 2]) (i : Fin a) (u : Fin 1) (k : Fin c) :
    broadcastInDim ⟨3, ![a, 1, c]⟩ ![0, 2] h x (ix3 i u k) = x (ix2 i k) := by
  refine broadcastInDim_apply _ h x (ix3 i u k) (ix2 i k) fun ax => ?_
  match ax with
  | ⟨0, _⟩ =>
    show i.val = if a = 1 then 0 else i.val
    split
    · have := i.isLt; omega
    · rfl
  | ⟨1, _⟩ =>
    show k.val = if c = 1 then 0 else k.val
    split
    · have := k.isLt; omega
    · rfl

/-- An `[a, 1, c]` array broadcast to `[a, b, c]` reads, at `(i, j, k)`, the operand at `(i, 0, k)`. -/
theorem broadcastInDim_a1c_abc_apply {a b c : ℕ} (x : (⟨3, ![a, 1, c]⟩ : Shape).Idx → α)
    (h : (⟨3, ![a, 1, c]⟩ : Shape).BroadcastsInDim ⟨3, ![a, b, c]⟩ ![0, 1, 2]) (i : Fin a) (j : Fin b) (k : Fin c) :
    broadcastInDim ⟨3, ![a, b, c]⟩ ![0, 1, 2] h x (ix3 i j k) = x (ix3 i (0 : Fin 1) k) := by
  refine broadcastInDim_apply _ h x (ix3 i j k) (ix3 i (0 : Fin 1) k) fun ax => ?_
  match ax with
  | ⟨0, _⟩ =>
    show i.val = if a = 1 then 0 else i.val
    split
    · have := i.isLt; omega
    · rfl
  | ⟨1, _⟩ =>
    show (0 : ℕ) = if (1 : ℕ) = 1 then 0 else j.val
    rw [if_pos rfl]
  | ⟨2, _⟩ =>
    show k.val = if c = 1 then 0 else k.val
    split
    · have := k.isLt; omega
    · rfl

/-- An `[a, b]` array given a trailing unit axis reads, at `(i, j, u)`, the operand at `(i, j)`. -/
theorem broadcastInDim_ab_ab1_apply {a b : ℕ} (x : (⟨2, ![a, b]⟩ : Shape).Idx → α)
    (h : (⟨2, ![a, b]⟩ : Shape).BroadcastsInDim ⟨3, ![a, b, 1]⟩ ![0, 1]) (i : Fin a) (j : Fin b) (u : Fin 1) :
    broadcastInDim ⟨3, ![a, b, 1]⟩ ![0, 1] h x (ix3 i j u) = x (ix2 i j) := by
  refine broadcastInDim_apply _ h x (ix3 i j u) (ix2 i j) fun ax => ?_
  match ax with
  | ⟨0, _⟩ =>
    show i.val = if a = 1 then 0 else i.val
    split
    · have := i.isLt; omega
    · rfl
  | ⟨1, _⟩ =>
    show j.val = if b = 1 then 0 else j.val
    split
    · have := j.isLt; omega
    · rfl

/-- An `[a, b, 1]` array broadcast to `[a, b, c]` reads, at `(i, j, k)`, the operand at `(i, j, 0)`. -/
theorem broadcastInDim_ab1_abc_apply {a b c : ℕ} (x : (⟨3, ![a, b, 1]⟩ : Shape).Idx → α)
    (h : (⟨3, ![a, b, 1]⟩ : Shape).BroadcastsInDim ⟨3, ![a, b, c]⟩ ![0, 1, 2]) (i : Fin a) (j : Fin b) (k : Fin c) :
    broadcastInDim ⟨3, ![a, b, c]⟩ ![0, 1, 2] h x (ix3 i j k) = x (ix3 i j (0 : Fin 1)) := by
  refine broadcastInDim_apply _ h x (ix3 i j k) (ix3 i j (0 : Fin 1)) fun ax => ?_
  match ax with
  | ⟨0, _⟩ =>
    show i.val = if a = 1 then 0 else i.val
    split
    · have := i.isLt; omega
    · rfl
  | ⟨1, _⟩ =>
    show j.val = if b = 1 then 0 else j.val
    split
    · have := j.isLt; omega
    · rfl
  | ⟨2, _⟩ =>
    show (0 : ℕ) = if (1 : ℕ) = 1 then 0 else k.val
    rw [if_pos rfl]

/-- Over the extended reals, the host's sum of an `[a, b, c]` array along its last axis is, at `(p, r)`, the initial
    value plus the sum of the `c` entries of that row. -/
theorem hostReduceAdd_abc_ab_apply {φ : FTy} {a b c : ℕ} {u : Shape} (x : FVec Ideal ⟨3, ![a, b, c]⟩ φ)
    (init : FVec Ideal u φ) (h' : (⟨3, ![a, b, c]⟩ : Shape).ReducesTo [(2 : Fin 3)] ⟨2, ![a, b]⟩)
    (h : (⟨3, ![a, b, c]⟩ : Shape).Reduces [(2 : Fin 3)] ⟨2, ![a, b]⟩) (hu : 0 < u.numel) (p : Fin a) (r : Fin b) :
    Host.reduceAdd x init h' hu (ix2 p r) = init (Shape.Idx.first hu) + ∑ k : Fin c, x (ix3 p r k) := by
  simp only [Host.reduceAdd, Ideal.hostReduceAdd_def]
  rw [Ideal.hostReduceAdd_single h' h]
  refine congrArg (_ + ·) (Finset.sum_congr rfl fun k _ => ?_)
  exact congrArg x (funext fun d => Fin.ext (by
    match d with | ⟨0, _⟩ => rfl | ⟨1, _⟩ => rfl | ⟨2, _⟩ => rfl))

end Cert.Lib.HostRows
-- ==== Proof.KernelValue.lean ====
/-
  The kernel's two result arrays after the run.

  The grid has one point per batch. At point `t` every window's block is the batch-`t` slab of its array: the premise
  and hypothesis slabs `[1, 512, 600]`, and the two mask rows `[1, 1, 512]`, which the host wrote before the region as
  the masks with a unit middle axis. What point `t` writes back to each result is the attention block of its slabs,
  which is slab `t` of the whole-array function `weighted`; the 64 slabs cover each result array.
-/
import proofs.«107936_j55293408969033_2_alg».proof.Proof.Gen.KernelIdeal.Value
import proofs.«107936_j55293408969033_2_alg».proof.Proof.Block
import proofs.«107936_j55293408969033_2_alg».proof.Proof.Spec
import proofs.«107936_j55293408969033_2_alg».proof.Proof.LibHostRows
import Idealize.ShloMosaic.Lib.Pipeline.Value
import Idealize.ShloMosaic.Lib.StableHlo.Run
import Idealize.ShloMosaic.Lib.Tactic

open scoped BigOperators

noncomputable section

open Idealize.ShloMosaic Idealize.ShloMosaic.TcCoe Idealize.SL.Sem
open Idealize.ShloMosaic.Pipeline (Dat)

namespace Cert.Attend.KernelValue

open Cert.KernelIdeal Cert.KernelIdeal.Gen Cert.KernelIdeal.Value Idealize.ShloMosaic.ValueIdx Cert.Attend

variable (m : (ℓ : Loc nD τ sig) → Buf (Elt Ideal) ℓ) (ρ : Dev nD → PrngReg)

theorem hz : (![0, 0, 0] : Fin 3 → Nat) = fun _ => 0 := funext fun a => by fin_cases a <;> rfl

/-- The batch a grid point works on. -/
def bat (t : Fin cfg0.N) : Fin 64 := ⟨t.val, lt_of_lt_of_eq t.isLt N_0⟩

/-- Every window's block index at point `t` is `(t, 0, 0)` (decided over the 64 points). -/
theorem idx_facts : ∀ t : Fin cfg0.N,
    (win0_0.index t (0 : Fin 3) = t.val ∧ win0_0.index t (1 : Fin 3) = 0 ∧ win0_0.index t (2 : Fin 3) = 0)
    ∧ (win0_1.index t (0 : Fin 3) = t.val ∧ win0_1.index t (1 : Fin 3) = 0 ∧ win0_1.index t (2 : Fin 3) = 0)
    ∧ (win0_2.index t (0 : Fin 3) = t.val ∧ win0_2.index t (1 : Fin 3) = 0 ∧ win0_2.index t (2 : Fin 3) = 0)
    ∧ (win0_3.index t (0 : Fin 3) = t.val ∧ win0_3.index t (1 : Fin 3) = 0 ∧ win0_3.index t (2 : Fin 3) = 0)
    ∧ (win0_4.index t (0 : Fin 3) = t.val ∧ win0_4.index t (1 : Fin 3) = 0 ∧ win0_4.index t (2 : Fin 3) = 0)
    ∧ (win0_5.index t (0 : Fin 3) = t.val ∧ win0_5.index t (1 : Fin 3) = 0 ∧ win0_5.index t (2 : Fin 3) = 0) :=
  (by decide +kernel : ∀ t : Fin grid0.N, _)

/-! ## The mask rows as the region finds them -/

/-- The hypothesis mask with a unit middle axis. -/
theorem V_v0 (c : Dev nD) : (V m c main_v0 : S64x1x512.Idx → EReal)
    = broadcastInDim S64x1x512 ![0, 2] bcast_S64x512_S64x1x512_0_2 (m ((c : Thread nD τ).loc main_arg3)) := by
  dsimp only [Gen.V, Gen.hostOps0]; after_results

/-- The premise mask with a unit middle axis. -/
theorem V_v1 (c : Dev nD) : (V m c main_v1 : S64x1x512.Idx → EReal)
    = broadcastInDim S64x1x512 ![0, 2] bcast_S64x512_S64x1x512_0_2 (m ((c : Thread nD τ).loc main_arg1)) := by
  dsimp only [Gen.V, Gen.hostOps0]; after_results

/-! ## The blocks at a point -/

/-- The premise block at point `t` is the premise's batch-`t` slab. -/
theorem blk0 (c : Dev nD) (t : Fin cfg0.N) (u : Fin 1) (q : Fin 512) (e : Fin 600) :
    (iblk m c 0 t : Vec Ideal S1x512x600 .f32) (ix3 u q e)
      = (m ((c : Thread nD τ).loc main_arg0) : S64x512x600.Idx → EReal) (ix3 (bat t) q e) := by
  obtain ⟨⟨e0, e1, e2⟩, -⟩ := idx_facts t
  unfold iblk
  rw [View.read_apply]
  show V m c main_arg0 _ = _
  rw [V_main_arg0]
  refine congrArg _ (funext fun a => Fin.ext ?_)
  have hu : u.val = 0 := by omega
  match a with
  | ⟨0, _⟩ => show win0_0.index t (0 : Fin 3) * 1 + 1 * u.val = t.val; rw [e0, hu]; omega
  | ⟨1, _⟩ => show win0_0.index t (1 : Fin 3) * 512 + 1 * q.val = q.val; rw [e1]; omega
  | ⟨2, _⟩ => show win0_0.index t (2 : Fin 3) * 600 + 1 * e.val = e.val; rw [e2]; omega

/-- The hypothesis block at point `t` is the hypothesis's batch-`t` slab. -/
theorem blk1 (c : Dev nD) (t : Fin cfg0.N) (u : Fin 1) (q : Fin 512) (e : Fin 600) :
    (iblk m c 1 t : Vec Ideal S1x512x600 .f32) (ix3 u q e)
      = (m ((c : Thread nD τ).loc main_arg2) : S64x512x600.Idx → EReal) (ix3 (bat t) q e) := by
  obtain ⟨-, ⟨e0, e1, e2⟩, -⟩ := idx_facts t
  unfold iblk
  rw [View.read_apply]
  show V m c main_arg2 _ = _
  rw [V_main_arg2]
  refine congrArg _ (funext fun a => Fin.ext ?_)
  have hu : u.val = 0 := by omega
  match a with
  | ⟨0, _⟩ => show win0_1.index t (0 : Fin 3) * 1 + 1 * u.val = t.val; rw [e0, hu]; omega
  | ⟨1, _⟩ => show win0_1.index t (1 : Fin 3) * 512 + 1 * q.val = q.val; rw [e1]; omega
  | ⟨2, _⟩ => show win0_1.index t (2 : Fin 3) * 600 + 1 * e.val = e.val; rw [e2]; omega

/-- The third window's block at point `t` is row `t` of the hypothesis mask. -/
theorem blk2 (c : Dev nD) (t : Fin cfg0.N) (u u' : Fin 1) (h : Fin 512) :
    (iblk m c 2 t : Vec Ideal S1x1x512 .f32) (ix3 u u' h)
      = (m ((c : Thread nD τ).loc main_arg3) : S64x512.Idx → EReal) (ix2 (bat t) h) := by
  obtain ⟨-, -, ⟨e0, e1, e2⟩, -⟩ := idx_facts t
  unfold iblk
  rw [View.read_apply]
  show V m c main_v0 _ = _
  rw [V_v0]
  have hu : u.val = 0 := by omega
  refine broadcastInDim_apply _ _ _ _ (ix2 (bat t) h) fun a => ?_
  match a with
  | ⟨0, _⟩ =>
    show t.val = if (64 : ℕ) = 1 then 0 else win0_2.index t (0 : Fin 3) * 1 + 1 * u.val
    rw [if_neg (by decide), e0, hu]; omega
  | ⟨1, _⟩ =>
    show h.val = if (512 : ℕ) = 1 then 0 else win0_2.index t (2 : Fin 3) * 512 + 1 * h.val
    rw [if_neg (by decide), e2]; omega

/-- The fourth window's block at point `t` is row `t` of the premise mask. -/
theorem blk3 (c : Dev nD) (t : Fin cfg0.N) (u u' : Fin 1) (h : Fin 512) :
    (iblk m c 3 t : Vec Ideal S1x1x512 .f32) (ix3 u u' h)
      = (m ((c : Thread nD τ).loc main_arg1) : S64x512.Idx → EReal) (ix2 (bat t) h) := by
  obtain ⟨-, -, -, ⟨e0, e1, e2⟩, -⟩ := idx_facts t
  unfold iblk
  rw [View.read_apply]
  show V m c main_v1 _ = _
  rw [V_v1]
  have hu : u.val = 0 := by omega
  refine broadcastInDim_apply _ _ _ _ (ix2 (bat t) h) fun a => ?_
  match a with
  | ⟨0, _⟩ =>
    show t.val = if (64 : ℕ) = 1 then 0 else win0_3.index t (0 : Fin 3) * 1 + 1 * u.val
    rw [if_neg (by decide), e0, hu]; omega
  | ⟨1, _⟩ =>
    show h.val = if (512 : ℕ) = 1 then 0 else win0_3.index t (2 : Fin 3) * 512 + 1 * h.val
    rw [if_neg (by decide), e2]; omega

/-! ## The result arrays -/

/-- The first result: the premise's rows attend to the hypothesis. -/
abbrev G0 (c : Dev nD) : S64x512x600.Idx → EReal :=
  weighted (Ideal.ofBits .f32 0xFF800000#32) (Ideal.ofBits .f32 0x29E12E13#32)
    (m ((c : Thread nD τ).loc main_arg0)) (m ((c : Thread nD τ).loc main_arg2)) (m ((c : Thread nD τ).loc main_arg3)) (m ((c : Thread nD τ).loc main_arg1))

/-- The second result: the hypothesis's rows attend to the premise. -/
abbrev G1 (c : Dev nD) : S64x512x600.Idx → EReal :=
  weighted (Ideal.ofBits .f32 0xFF800000#32) (Ideal.ofBits .f32 0x29E12E13#32)
    (m ((c : Thread nD τ).loc main_arg2)) (m ((c : Thread nD τ).loc main_arg0)) (m ((c : Thread nD τ).loc main_arg1)) (m ((c : Thread nD τ).loc main_arg3))

/-- What point `t` writes back to the first result is slab `t` of `G0`. -/
theorem flushed4_eq (c : Dev nD) (t : Fin cfg0.N) :
    (dats m 0 c).flushed 4 t = ((cfg0.win 4).blk t).view.read (Elt Ideal) (G0 m c) := by
  obtain ⟨-, -, -, -, ⟨e0, e1, e2⟩, -⟩ := idx_facts t
  rw [Value.flushed4]
  unfold out0_4
  rw [View.canon_unit_zero hz]
  simp only [View.ld_unit_zero (S := S1x512x600) hz, View.ld_unit_zero (S := S1x1x512) hz]
  refine funext fun (j : S1x512x600.Idx) => ?_
  obtain ⟨u, p, d, rfl⟩ : ∃ (u : Fin 1) (p : Fin 512) (d : Fin 600), j = ix3 u p d := ⟨j 0, j 1, j 2, eq_ix3 j⟩
  rw [View.read_apply]
  have hu : u.val = 0 := by omega
  have hemb : ((cfg0.win 4).blk t).view.emb (ix3 u p d) = ix3 (bat t) p d := funext fun a => Fin.ext (by
    match a with
    | ⟨0, _⟩ => show win0_4.index t (0 : Fin 3) * 1 + 1 * u.val = t.val; rw [e0, hu]; omega
    | ⟨1, _⟩ => show win0_4.index t (1 : Fin 3) * 512 + 1 * p.val = p.val; rw [e1]; omega
    | ⟨2, _⟩ => show win0_4.index t (2 : Fin 3) * 600 + 1 * d.val = d.val; rw [e2]; omega)
  show k0_pay6 (iblk m c 0 t : Vec Ideal S1x512x600 .f32) (iblk m c 1 t : Vec Ideal S1x512x600 .f32)
      (iblk m c 2 t : Vec Ideal S1x1x512 .f32) (iblk m c 3 t : Vec Ideal S1x1x512 .f32) (ix3 u p d)
    = G0 m c (((cfg0.win 4).blk t).view.emb (ix3 u p d))
  rw [hemb]
  refine (Kernel.store0_apply (iblk m c 0 t : Vec Ideal S1x512x600 .f32) (iblk m c 1 t : Vec Ideal S1x512x600 .f32)
      (iblk m c 2 t : Vec Ideal S1x1x512 .f32) (iblk m c 3 t : Vec Ideal S1x1x512 .f32) u p d).trans ?_
  show _ = weightedAt _ _ _ _ _ _ (bat t) p d
  unfold weightedAt
  simp only [blk0, blk1, blk2, blk3]

/-- What point `t` writes back to the second result is slab `t` of `G1`. -/
theorem flushed5_eq (c : Dev nD) (t : Fin cfg0.N) :
    (dats m 0 c).flushed 5 t = ((cfg0.win 5).blk t).view.read (Elt Ideal) (G1 m c) := by
  obtain ⟨-, -, -, -, -, ⟨e0, e1, e2⟩⟩ := idx_facts t
  rw [Value.flushed5]
  unfold out0_5
  rw [View.canon_unit_zero hz]
  simp only [View.ld_unit_zero (S := S1x512x600) hz, View.ld_unit_zero (S := S1x1x512) hz]
  refine funext fun (j : S1x512x600.Idx) => ?_
  obtain ⟨u, p, d, rfl⟩ : ∃ (u : Fin 1) (p : Fin 512) (d : Fin 600), j = ix3 u p d := ⟨j 0, j 1, j 2, eq_ix3 j⟩
  rw [View.read_apply]
  have hu : u.val = 0 := by omega
  have hemb : ((cfg0.win 5).blk t).view.emb (ix3 u p d) = ix3 (bat t) p d := funext fun a => Fin.ext (by
    match a with
    | ⟨0, _⟩ => show win0_5.index t (0 : Fin 3) * 1 + 1 * u.val = t.val; rw [e0, hu]; omega
    | ⟨1, _⟩ => show win0_5.index t (1 : Fin 3) * 512 + 1 * p.val = p.val; rw [e1]; omega
    | ⟨2, _⟩ => show win0_5.index t (2 : Fin 3) * 600 + 1 * d.val = d.val; rw [e2]; omega)
  show k0_pay1 (k0_pay2 (iblk m c 0 t : Vec Ideal S1x512x600 .f32)) (k0_pay3 (iblk m c 1 t : Vec Ideal S1x512x600 .f32))
      (k0_pay4 (iblk m c 2 t : Vec Ideal S1x1x512 .f32)) (k0_pay5 (iblk m c 3 t : Vec Ideal S1x1x512 .f32)) (ix3 u p d)
    = G1 m c (((cfg0.win 5).blk t).view.emb (ix3 u p d))
  rw [hemb]
  refine (Kernel.store1_apply (iblk m c 0 t : Vec Ideal S1x512x600 .f32) (iblk m c 1 t : Vec Ideal S1x512x600 .f32)
      (iblk m c 2 t : Vec Ideal S1x1x512 .f32) (iblk m c 3 t : Vec Ideal S1x1x512 .f32) u p d).trans ?_
  show _ = weightedAt _ _ _ _ _ _ (bat t) p d
  unfold weightedAt
  simp only [blk0, blk1, blk2, blk3]

/-- An index of a result array is in point `t`'s block iff each coordinate is in the block's range on its axis. -/
theorem mem_blk4 (t : Fin cfg0.N) (i : S64x512x600.Idx) :
    i ∈ ((cfg0.win 4).blk t).view.set ↔ ∀ a : Fin 3, win0_4.index t a * S1x512x600.size a ≤ (i a).val ∧ (i a).val < win0_4.index t a * S1x512x600.size a + S1x512x600.size a := by
  show i ∈ ((View.whole main_v2_0).slice (win0_4.rect t)).set ↔ _
  rw [View.set_slice_whole, Rect.mem_set_unit]
  exact Iff.rfl

theorem mem_blk5 (t : Fin cfg0.N) (i : S64x512x600.Idx) :
    i ∈ ((cfg0.win 5).blk t).view.set ↔ ∀ a : Fin 3, win0_5.index t a * S1x512x600.size a ≤ (i a).val ∧ (i a).val < win0_5.index t a * S1x512x600.size a + S1x512x600.size a := by
  show i ∈ ((View.whole main_v2_1).slice (win0_5.rect t)).set ↔ _
  rw [View.set_slice_whole, Rect.mem_set_unit]
  exact Iff.rfl

/-- The first result array after the run: the point of batch `i 0` covers index `i`. -/
theorem final4 (c : Dev nD) : (dats m 0 c).arrAt 4 cfg0.N = G0 m c :=
  (dats m 0 c).arrAt_eq_of_cover 4 (G0 m c) (fun t _ => flushed4_eq m c t) fun i => by
    have hi0 : (i 0).val < 64 := (i 0).isLt
    have hi1 : (i 1).val < 512 := (i 1).isLt
    have hi2 : (i 2).val < 600 := (i 2).isLt
    have hN : cfg0.N = 64 := N_0
    obtain ⟨t, ht⟩ : ∃ t : Fin cfg0.N, t.val = (i 0).val := ⟨⟨(i 0).val, by omega⟩, rfl⟩
    refine ⟨t, flush0_4 t, ?_⟩
    obtain ⟨-, -, -, -, ⟨e0, e1, e2⟩, -⟩ := idx_facts t
    rw [mem_blk4]
    intro a
    match a with
    | ⟨0, _⟩ =>
      show win0_4.index t (0 : Fin 3) * 1 ≤ (i 0).val ∧ (i 0).val < win0_4.index t (0 : Fin 3) * 1 + 1
      rw [e0]; omega
    | ⟨1, _⟩ =>
      show win0_4.index t (1 : Fin 3) * 512 ≤ (i 1).val ∧ (i 1).val < win0_4.index t (1 : Fin 3) * 512 + 512
      rw [e1]; omega
    | ⟨2, _⟩ =>
      show win0_4.index t (2 : Fin 3) * 600 ≤ (i 2).val ∧ (i 2).val < win0_4.index t (2 : Fin 3) * 600 + 600
      rw [e2]; omega

/-- The second result array after the run. -/
theorem final5 (c : Dev nD) : (dats m 0 c).arrAt 5 cfg0.N = G1 m c :=
  (dats m 0 c).arrAt_eq_of_cover 5 (G1 m c) (fun t _ => flushed5_eq m c t) fun i => by
    have hi0 : (i 0).val < 64 := (i 0).isLt
    have hi1 : (i 1).val < 512 := (i 1).isLt
    have hi2 : (i 2).val < 600 := (i 2).isLt
    have hN : cfg0.N = 64 := N_0
    obtain ⟨t, ht⟩ : ∃ t : Fin cfg0.N, t.val = (i 0).val := ⟨⟨(i 0).val, by omega⟩, rfl⟩
    refine ⟨t, flush0_5 t, ?_⟩
    obtain ⟨-, -, -, -, -, ⟨e0, e1, e2⟩⟩ := idx_facts t
    rw [mem_blk5]
    intro a
    match a with
    | ⟨0, _⟩ =>
      show win0_5.index t (0 : Fin 3) * 1 ≤ (i 0).val ∧ (i 0).val < win0_5.index t (0 : Fin 3) * 1 + 1
      rw [e0]; omega
    | ⟨1, _⟩ =>
      show win0_5.index t (1 : Fin 3) * 512 ≤ (i 1).val ∧ (i 1).val < win0_5.index t (1 : Fin 3) * 512 + 512
      rw [e1]; omega
    | ⟨2, _⟩ =>
      show win0_5.index t (2 : Fin 3) * 600 ≤ (i 2).val ∧ (i 2).val < win0_5.index t (2 : Fin 3) * 600 + 600
      rw [e2]; omega

/-- The run, read: each result array at its function of the argument arrays, the arguments unchanged. -/
theorem run : θ_run defs (onTc (τ := τ) (main (F := Ideal))) ⟨m, fun _ => 0, ρ⟩ fun r => ∀ c : Dev nD,
      r.2.mem ((c : Thread nD τ).loc main_v2_0) = G0 m c
      ∧ r.2.mem ((c : Thread nD τ).loc main_v2_1) = G1 m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final4 m c), (h c).2.1.trans (final5 m c), (h c).2.2⟩)
    (Value.run_blocks m ρ)

end Cert.Attend.KernelValue

end
-- ==== Proof.RefSide.lean ====
/-
  The reference, read at an index.

  The reference computes the scores once for all batches, `s (b, p, h) = ∑ d, P (b, p, d) · H (b, h, d)`, takes the
  masked renormalised softmax of `s` along `h` with the hypothesis mask and of its transpose along `p` with the premise
  mask (each in the two-division arrangement), and multiplies the first by `H` and the second by `P`, scaling rows by
  the other mask. Both softmaxes are one chain of host operations applied to different scores and masks; the chain is
  read here once, for any scores and any mask row, and then each result is the attention block of the specification.
-/
import proofs.«107936_j55293408969033_2_alg».proof.Proof.Gen.ReferenceIdeal.Read
import proofs.«107936_j55293408969033_2_alg».proof.Proof.Attend
import proofs.«107936_j55293408969033_2_alg».proof.Proof.LibHostRows
import proofs.«107936_j55293408969033_2_alg».proof.Proof.LibRowMax
import Idealize.ShloMosaic.Lib.ValueLayout
import Idealize.ShloMosaic.Lib.ValueIdx
import Idealize.ShloMosaic.PureOps.Ideal.Laws

open scoped BigOperators

noncomputable section

namespace Cert.Attend.Ref

open Cert.ReferenceIdeal Cert.ReferenceIdeal.Gen Cert.ReferenceIdeal.Read Idealize.ShloMosaic Idealize.ShloMosaic.ValueIdx Cert.Attend
open Cert.Lib.HostRows

/-! ## The softmax chain, for any scores `S` and mask row `W` -/

/-- The mask row spread over the rows. -/
def spread (W : FVec Ideal S64x1x512 .f32) : FVec Ideal S64x512x512 .f32 :=
  broadcastInDim S64x512x512 ![0, 1, 2] bcast_S64x1x512_S64x512x512_0_1_2 W

/-- A per-row value spread back along the row. -/
def along (v : FVec Ideal S64x512 .f32) : FVec Ideal S64x512x512 .f32 :=
  broadcastInDim S64x512x512 ![0, 1, 2] bcast_S64x512x1_S64x512x512_0_1_2 (broadcastInDim S64x512x1 ![0, 1] bcast_S64x512_S64x512x1_0_1 v)

/-- The row maximum of the scaled scores, compared once more with minus infinity. -/
def rowTop (X : FVec Ideal S64x512x512 .f32) : FVec Ideal S64x512 .f32 :=
  maximumf (broadcastInDim S64x512 ![] bcast_S_S64x512 (constant (F := Ideal) S_ .f32 0xFF800000#32))
    (Host.reduce FloatOps.maximumf X (constant (F := Ideal) S_ .f32 0xFF800000#32) reducesTo_S64x512x512_S64x512_d2 h_S_)

/-- The exponentials of the scaled scores less their row's maximum. -/
def expo (S : FVec Ideal S64x512x512 .f32) (W : FVec Ideal S64x1x512 .f32) : FVec Ideal S64x512x512 .f32 :=
  Host.exp (subf (mulf S (spread W)) (along (rowTop (mulf S (spread W)))))

/-- The first softmax, masked. -/
def masked (S : FVec Ideal S64x512x512 .f32) (W : FVec Ideal S64x1x512 .f32) : FVec Ideal S64x512x512 .f32 :=
  mulf (Host.divf (expo S W) (along (Host.reduceAdd (expo S W) (constant (F := Ideal) S_ .f32 0x00000000#32) reducesTo_S64x512x512_S64x512_d2 h_S_)))
    (spread W)

/-- The whole chain: the masked softmax renormalised. -/
def softRef (S : FVec Ideal S64x512x512 .f32) (W : FVec Ideal S64x1x512 .f32) : FVec Ideal S64x512x512 .f32 :=
  Host.divf (masked S W)
    (broadcastInDim S64x512x512 ![0, 1, 2] bcast_S64x512x1_S64x512x512_0_1_2
      (addf (broadcastInDim S64x512x1 ![0, 1] bcast_S64x512_S64x512x1_0_1
          (Host.reduceAdd (masked S W) (constant (F := Ideal) S_ .f32 0x00000000#32) reducesTo_S64x512x512_S64x512_d2 h_S_))
        (broadcastInDim S64x512x1 ![] bcast_S_S64x512x1 (constant (F := Ideal) S_ .f32 0x29E12E13#32))))

/-- The reference's first softmax is the chain on the scores and the hypothesis mask row. -/
theorem v22_eq (x0 x2 : FVec Ideal S64x512x600 .f32) (x3 : FVec Ideal S64x512 .f32) :
    val_main_v22 (F := Ideal) x0 x2 x3 = softRef (val_main_v0 (F := Ideal) x0 x2) (val_main_v1 (F := Ideal) x3) := rfl

/-- The reference's second softmax is the same chain on the transposed scores and the premise mask row. -/
theorem v45_eq (x0 x2 : FVec Ideal S64x512x600 .f32) (x1 : FVec Ideal S64x512 .f32) :
    val_main_v45 (F := Ideal) x0 x1 x2 = softRef (val_main_v23 (F := Ideal) x0 x2) (val_main_v24 (F := Ideal) x1) := rfl

/-! ## The chain at an index -/

theorem hostDivf_apply {s : Shape} {φ : FTy} (a b : FVec Ideal s φ) (i : s.Idx) : Host.divf a b i = Ideal.div (a i) (b i) := rfl
theorem hostExp_apply {s : Shape} {φ : FTy} (a : FVec Ideal s φ) (i : s.Idx) : Host.exp a i = Ideal.exp (a i) := rfl

theorem spread_apply (W : FVec Ideal S64x1x512 .f32) (b : Fin 64) (p k : Fin 512) :
    spread W (ix3 b p k) = W (ix3 b (0 : Fin 1) k) :=
  broadcastInDim_a1c_abc_apply W bcast_S64x1x512_S64x512x512_0_1_2 b p k

theorem along_apply (v : FVec Ideal S64x512 .f32) (b : Fin 64) (p k : Fin 512) : along v (ix3 b p k) = v (ix2 b p) :=
  (broadcastInDim_ab1_abc_apply _ bcast_S64x512x1_S64x512x512_0_1_2 b p k).trans
    (broadcastInDim_ab_ab1_apply v bcast_S64x512_S64x512x1_0_1 b p (0 : Fin 1))

theorem rowTop_apply (X : FVec Ideal S64x512x512 .f32) (b : Fin 64) (p : Fin 512) :
    rowTop X (ix2 b p) = max (Ideal.ofBits .f32 0xFF800000#32) (rowMax (Ideal.ofBits .f32 0xFF800000#32) (fun k : Fin 512 => X (ix3 b p k))) := by
  unfold rowTop rowMax
  rw [maximumf_apply, broadcastInDim_scalar_apply,
    Cert.Lib.RowMax.hostReduce_maximumf_abc_ab_apply X _ reducesTo_S64x512x512_S64x512_d2 (by decide) h_S_ b p]
  rfl

/-- The chain, entry by entry, is the two-division softmax of the row of scaled scores. -/
theorem softRef_apply (S : FVec Ideal S64x512x512 .f32) (W : FVec Ideal S64x1x512 .f32) (b : Fin 64) (p h : Fin 512) :
    softRef S W (ix3 b p h)
      = attnR (Ideal.ofBits .f32 0xFF800000#32) (Ideal.ofBits .f32 0x00000000#32) (Ideal.ofBits .f32 0x29E12E13#32)
          (fun k : Fin 512 => S (ix3 b p k) * W (ix3 b (0 : Fin 1) k)) (fun k : Fin 512 => W (ix3 b (0 : Fin 1) k)) h := by
  have hred : ∀ (x : FVec Ideal S64x512x512 .f32) (q : Fin 512),
      Host.reduceAdd x (constant (F := Ideal) S_ .f32 0x00000000#32) reducesTo_S64x512x512_S64x512_d2 h_S_ (ix2 b q)
        = Ideal.ofBits .f32 0x00000000#32 + ∑ k : Fin 512, x (ix3 b q k) :=
    fun x q => hostReduceAdd_abc_ab_apply x _ reducesTo_S64x512x512_S64x512_d2 (by decide) h_S_ b q
  have hb3 : ∀ v : FVec Ideal S64x512x1 .f32,
      broadcastInDim S64x512x512 ![0, 1, 2] bcast_S64x512x1_S64x512x512_0_1_2 v (ix3 b p h) = v (ix3 b p (0 : Fin 1)) :=
    fun v => broadcastInDim_ab1_abc_apply v _ b p h
  have hb2 : ∀ (v : FVec Ideal S64x512 .f32) (u : Fin 1),
      broadcastInDim S64x512x1 ![0, 1] bcast_S64x512_S64x512x1_0_1 v (ix3 b p u) = v (ix2 b p) :=
    fun v u => broadcastInDim_ab_ab1_apply v _ b p u
  have hb0 : ∀ (cst : FVec Ideal S_ .f32) (j : S64x512x1.Idx),
      broadcastInDim S64x512x1 ![] bcast_S_S64x512x1 cst j = cst ix0 :=
    fun cst j => broadcastInDim_scalar_apply _ _ cst j
  unfold softRef masked expo attnR
  simp only [hostDivf_apply, hostExp_apply, mulf_apply, addf_apply, subf_apply, spread_apply, along_apply, rowTop_apply, hred,
    hb3, hb2, hb0, constant_apply]

/-! ## The two results -/

/-- The first result: rows of the premise attend to the hypothesis. -/
theorem out0_apply (x0 x2 : FVec Ideal S64x512x600 .f32) (x1 x3 : FVec Ideal S64x512 .f32) (b : Fin 64) (p : Fin 512) (d : Fin 600) :
    val_main_v49 (F := Ideal) x0 x1 x2 x3 (ix3 b p d)
      = attendR (Ideal.ofBits .f32 0xFF800000#32) (Ideal.ofBits .f32 0x00000000#32) (Ideal.ofBits .f32 0x29E12E13#32)
          (fun (q h : Fin 512) => ∑ e : Fin 600, x0 (ix3 b q e) * x2 (ix3 b h e)) (fun (h : Fin 512) (e : Fin 600) => x2 (ix3 b h e))
          (fun h : Fin 512 => x3 (ix2 b h)) (fun q : Fin 512 => x1 (ix2 b q)) p d := by
  have l46 : ∀ k : Fin 512, lidx_main_v46 (ix3 b p d) k = ix3 b p k := fun k => funext fun a => by
    match a with | ⟨0, _⟩ => rfl | ⟨1, _⟩ => rfl | ⟨2, _⟩ => rfl
  have r46 : ∀ k : Fin 512, ridx_main_v46 (ix3 b p d) k = ix3 b k d := fun k => funext fun a => by
    match a with | ⟨0, _⟩ => rfl | ⟨1, _⟩ => rfl | ⟨2, _⟩ => rfl
  have i48 : idx_main_v48 (ix3 b p d) = ix3 b p (0 : Fin 1) := funext fun a => by
    match a with | ⟨0, _⟩ => rfl | ⟨1, _⟩ => rfl | ⟨2, _⟩ => rfl
  have i47 : idx_main_v47 (ix3 b p (0 : Fin 1)) = ix2 b p := funext fun a => by
    match a with | ⟨0, _⟩ => rfl | ⟨1, _⟩ => rfl
  have l0 : ∀ (q k : Fin 512) (e : Fin 600), lidx_main_v0 (ix3 b q k) e = ix3 b q e := fun q k e => funext fun a => by
    match a with | ⟨0, _⟩ => rfl | ⟨1, _⟩ => rfl | ⟨2, _⟩ => rfl
  have r0 : ∀ (q k : Fin 512) (e : Fin 600), ridx_main_v0 (ix3 b q k) e = ix3 b k e := fun q k e => funext fun a => by
    match a with | ⟨0, _⟩ => rfl | ⟨1, _⟩ => rfl | ⟨2, _⟩ => rfl
  have i1 : ∀ k : Fin 512, idx_main_v1 (ix3 b (0 : Fin 1) k) = ix2 b k := fun k => funext fun a => by
    match a with | ⟨0, _⟩ => rfl | ⟨1, _⟩ => rfl
  rw [val_main_v49_apply, val_main_v46_apply, val_main_v48_apply, val_main_v47_apply, v22_eq]
  unfold attendR
  simp only [l46, r46, i48, i47, softRef_apply, val_main_v0_apply, val_main_v1_apply, l0, r0, i1, Ideal.mulf_def]

/-- The second result: rows of the hypothesis attend to the premise; its scores are the first's, transposed. -/
theorem out1_apply (x0 x2 : FVec Ideal S64x512x600 .f32) (x1 x3 : FVec Ideal S64x512 .f32) (b : Fin 64) (h : Fin 512) (d : Fin 600) :
    val_main_v53 (F := Ideal) x0 x1 x2 x3 (ix3 b h d)
      = attendR (Ideal.ofBits .f32 0xFF800000#32) (Ideal.ofBits .f32 0x00000000#32) (Ideal.ofBits .f32 0x29E12E13#32)
          (fun (q p : Fin 512) => ∑ e : Fin 600, x0 (ix3 b p e) * x2 (ix3 b q e)) (fun (p : Fin 512) (e : Fin 600) => x0 (ix3 b p e))
          (fun p : Fin 512 => x1 (ix2 b p)) (fun q : Fin 512 => x3 (ix2 b q)) h d := by
  have l50 : ∀ k : Fin 512, lidx_main_v50 (ix3 b h d) k = ix3 b h k := fun k => funext fun a => by
    match a with | ⟨0, _⟩ => rfl | ⟨1, _⟩ => rfl | ⟨2, _⟩ => rfl
  have r50 : ∀ k : Fin 512, ridx_main_v50 (ix3 b h d) k = ix3 b k d := fun k => funext fun a => by
    match a with | ⟨0, _⟩ => rfl | ⟨1, _⟩ => rfl | ⟨2, _⟩ => rfl
  have i52 : idx_main_v52 (ix3 b h d) = ix3 b h (0 : Fin 1) := funext fun a => by
    match a with | ⟨0, _⟩ => rfl | ⟨1, _⟩ => rfl | ⟨2, _⟩ => rfl
  have i51 : idx_main_v51 (ix3 b h (0 : Fin 1)) = ix2 b h := funext fun a => by
    match a with | ⟨0, _⟩ => rfl | ⟨1, _⟩ => rfl
  have i23 : ∀ (q k : Fin 512), idx_main_v23 (ix3 b q k) = ix3 b k q := fun q k => funext fun a => by
    match a with | ⟨0, _⟩ => rfl | ⟨1, _⟩ => rfl | ⟨2, _⟩ => rfl
  have l0 : ∀ (q k : Fin 512) (e : Fin 600), lidx_main_v0 (ix3 b q k) e = ix3 b q e := fun q k e => funext fun a => by
    match a with | ⟨0, _⟩ => rfl | ⟨1, _⟩ => rfl | ⟨2, _⟩ => rfl
  have r0 : ∀ (q k : Fin 512) (e : Fin 600), ridx_main_v0 (ix3 b q k) e = ix3 b k e := fun q k e => funext fun a => by
    match a with | ⟨0, _⟩ => rfl | ⟨1, _⟩ => rfl | ⟨2, _⟩ => rfl
  have i24 : ∀ k : Fin 512, idx_main_v24 (ix3 b (0 : Fin 1) k) = ix2 b k := fun k => funext fun a => by
    match a with | ⟨0, _⟩ => rfl | ⟨1, _⟩ => rfl
  rw [val_main_v53_apply, val_main_v50_apply, val_main_v52_apply, val_main_v51_apply, v45_eq]
  unfold attendR
  simp only [l50, r50, i52, i51, softRef_apply, val_main_v23_apply, i23, val_main_v0_apply, val_main_v24_apply, l0, r0, i24, Ideal.mulf_def]

end Cert.Attend.Ref

end
-- ==== Proof.Bridge.lean ====
/-
  The reference's two results are the same whole-array functions.

  Read entry by entry the reference's results are attention blocks with the two-division softmax; the kernel's are
  attention blocks with the one-division softmax. When every entry of the two matrices and of the two masks is a real
  number, every score is real, so the softmax law applies row by row and the blocks agree. The second result's scores are
  the first's transposed, so its inner products come with their factors in the other order, which a product does not see.
-/
import proofs.«107936_j55293408969033_2_alg».proof.Proof.RefSide
import proofs.«107936_j55293408969033_2_alg».proof.Proof.Spec

open scoped BigOperators

noncomputable section

namespace Cert.Attend.Bridge

open Cert.ReferenceIdeal Cert.ReferenceIdeal.Read Idealize.ShloMosaic Idealize.ShloMosaic.ValueIdx Cert.Attend

/-- The first result is `weighted` of (premise, hypothesis, hypothesis mask, premise mask). -/
theorem out0_eq (x0 x2 : FVec Ideal S64x512x600 .f32) (x1 x3 : FVec Ideal S64x512 .f32)
    (h0 : ∀ i, IsReal (x0 i)) (h2 : ∀ i, IsReal (x2 i)) (h3 : ∀ i, IsReal (x3 i)) :
    val_main_v49 (F := Ideal) x0 x1 x2 x3
      = weighted (Ideal.ofBits .f32 0xFF800000#32) (Ideal.ofBits .f32 0x29E12E13#32) x0 x2 x3 x1 := by
  funext i
  obtain ⟨b, p, d, rfl⟩ : ∃ (b : Fin 64) (p : Fin 512) (d : Fin 600), i = ix3 b p d := ⟨i 0, i 1, i 2, eq_ix3 i⟩
  rw [Ref.out0_apply, weighted_ix3]
  unfold weightedAt
  rw [ofBits_neg_inf, Ideal.ofBits_zero_f32]
  haveI : Nonempty (Fin 512) := ⟨⟨0, by decide⟩⟩
  exact attendR_eq_attendK _ _ (fun q k => isReal_score (fun e => h0 _) (fun e => h2 _)) (fun k => h3 _) ofBits_eps_isReal p d

/-- The second result is `weighted` of (hypothesis, premise, premise mask, hypothesis mask). -/
theorem out1_eq (x0 x2 : FVec Ideal S64x512x600 .f32) (x1 x3 : FVec Ideal S64x512 .f32)
    (h0 : ∀ i, IsReal (x0 i)) (h2 : ∀ i, IsReal (x2 i)) (h1 : ∀ i, IsReal (x1 i)) :
    val_main_v53 (F := Ideal) x0 x1 x2 x3
      = weighted (Ideal.ofBits .f32 0xFF800000#32) (Ideal.ofBits .f32 0x29E12E13#32) x2 x0 x1 x3 := by
  funext i
  obtain ⟨b, h, d, rfl⟩ : ∃ (b : Fin 64) (h : Fin 512) (d : Fin 600), i = ix3 b h d := ⟨i 0, i 1, i 2, eq_ix3 i⟩
  rw [Ref.out1_apply, weighted_ix3]
  unfold weightedAt
  rw [ofBits_neg_inf, Ideal.ofBits_zero_f32]
  haveI : Nonempty (Fin 512) := ⟨⟨0, by decide⟩⟩
  have hsc : (fun (q p : Fin 512) => ∑ e : Fin 600, x0 (ix3 b p e) * x2 (ix3 b q e))
      = fun (q p : Fin 512) => ∑ e : Fin 600, x2 (ix3 b q e) * x0 (ix3 b p e) :=
    funext fun q => funext fun p => score_comm _ _
  rw [hsc]
  exact attendR_eq_attendK _ _ (fun q k => isReal_score (fun e => h2 _) (fun e => h0 _)) (fun k => h1 _) ofBits_eps_isReal h d

end Cert.Attend.Bridge

end
-- ==== Proof.Finite.lean ====
/-
  From the precondition to real numbers. The precondition says, of each of the four argument arrays, that every entry's
  absolute value is below plus infinity. On the extended reals that leaves exactly the real numbers: the absolute value
  of either infinity is plus infinity.
-/
import proofs.«107936_j55293408969033_2_alg».proof.Pre_finite_inputs
import proofs.«107936_j55293408969033_2_alg».proof.Proof.SoftmaxLaw
import Idealize.ShloMosaic.Lib.ReduceAll
import Idealize.ShloMosaic.Lib.ValueIdx
import Idealize.ShloMosaic.PureOps.Ideal.Laws

noncomputable section

namespace Cert.Attend

open Idealize.ShloMosaic

/-- The f32 pattern of plus infinity. -/
theorem ofBits_pos_inf : Ideal.ofBits .f32 0x7F800000#32 = ⊤ := by simp [Ideal.ofBits, Ideal.ieee]

/-- An extended real whose absolute value compares below plus infinity is a real number. -/
theorem isReal_of_abs_lt_inf {x : EReal}
    (h : Ideal.cmp .olt (max x (-x)) (Ideal.ofBits .f32 0x7F800000#32) = 1#1) : IsReal x := by
  rw [ofBits_pos_inf] at h
  induction x using EReal.rec with
  | bot => simp [Ideal.cmp] at h
  | top => simp [Ideal.cmp] at h
  | coe r => exact ⟨r, rfl⟩

instance : Subsingleton Cert.Pre_finite_inputs.S_.Idx := ⟨fun a b => funext fun d => d.elim0⟩

variable [Cert.Pre_finite_inputs.Facts]

/-- Under the precondition every entry of the four argument arrays is a real number. -/
theorem real_of_pre (a0 a2 : FVec Ideal Cert.Pre_finite_inputs.S64x512x600 .f32) (a1 a3 : FVec Ideal Cert.Pre_finite_inputs.S64x512 .f32)
    (h : Cert.Pre_finite_inputs.fn (F := Ideal) a0 a1 a2 a3 = fun _ => 1#1) :
    (∀ i, IsReal (a0 i)) ∧ (∀ i, IsReal (a1 i)) ∧ (∀ i, IsReal (a2 i)) ∧ (∀ i, IsReal (a3 i)) := by
  have h0 := congrFun h ValueIdx.ix0
  dsimp only [Cert.Pre_finite_inputs.fn, Cert.Pre_finite_inputs.fn_part1] at h0
  obtain ⟨h012, h3⟩ := IntOp.andi_eq_one.mp h0
  obtain ⟨h01, h2⟩ := IntOp.andi_eq_one.mp h012
  obtain ⟨h0', h1⟩ := IntOp.andi_eq_one.mp h01
  exact ⟨fun i => isReal_of_abs_lt_inf (Host.reduce_andi_all _ _ _ _ _ h0' i),
    fun i => isReal_of_abs_lt_inf (Host.reduce_andi_all _ _ _ _ _ h1 i),
    fun i => isReal_of_abs_lt_inf (Host.reduce_andi_all _ _ _ _ _ h2 i),
    fun i => isReal_of_abs_lt_inf (Host.reduce_andi_all _ _ _ _ _ h3 i)⟩

end Cert.Attend

end
-- ==== Proof.lean ====
/-
  Masked cross-attention between a premise and a hypothesis, fused per batch: the kernel against its reference, over
  the extended reals.

  For each of the 64 batches, with `P`, `H` the two 512×600 matrices and `pm`, `hm` their masks, both programs form
  the scores `s p h = ∑ d, P p d · H h d`, take the masked, renormalised softmax of `s` along `h` (mask `hm`) and of its
  transpose along `p` (mask `pm`), multiply the first by `H` and the second by `P`, and scale the rows by the other mask.
  They differ in the softmax. With `e = exp (x − max x)`, `D = ∑ e` and mask `w`, the reference computes
  `((e / D) · w) / (∑ (e / D) · w + ε)`; the kernel folds the two divisions into one, `(e · w) / (∑ e · w + ε · D)`. The
  same word denotes `ε` on both sides. Under the precondition every input is a real number, so every score is real, `D`
  is a positive real, and the two quotients are equal: the reference's is the kernel's with numerator and denominator
  both divided by `D`, and where the denominator vanishes both are the infinity of the numerator's sign. A format change
  is the identity on the extended reals, and sums and products do not depend on their order, so nothing else differs.

  The frames of the two kernels are the generated frame runs; the reference's frame is its generated run with the results
  dropped. The ideal pass rewrote nothing, so the kernel's idealization is its own text. The value claim puts the kernel's
  run (each result array one whole-array function of the arguments, `Cert.Attend.KernelValue.run`) beside the reference's
  run read entry by entry (`Cert.Attend.Bridge`).
-/
import proofs.«107936_j55293408969033_2_alg».proof.Defs
import proofs.«107936_j55293408969033_2_alg».proof.Proof.Gen.Kernel
import proofs.«107936_j55293408969033_2_alg».proof.Proof.Gen.Kernel.Skeleton
import proofs.«107936_j55293408969033_2_alg».proof.Proof.Gen.Kernel.Launch
import proofs.«107936_j55293408969033_2_alg».proof.Proof.Gen.Kernel.Points
import proofs.«107936_j55293408969033_2_alg».proof.Proof.Gen.Kernel.Frame
import proofs.«107936_j55293408969033_2_alg».proof.Proof.Gen.KernelIdeal
import proofs.«107936_j55293408969033_2_alg».proof.Proof.Gen.KernelIdeal.Skeleton
import proofs.«107936_j55293408969033_2_alg».proof.Proof.Gen.KernelIdeal.Launch
import proofs.«107936_j55293408969033_2_alg».proof.Proof.Gen.KernelIdeal.Points
import proofs.«107936_j55293408969033_2_alg».proof.Proof.Gen.KernelIdeal.Frame
import proofs.«107936_j55293408969033_2_alg».proof.Proof.Gen.ReferenceIdeal
import proofs.«107936_j55293408969033_2_alg».proof.Proof.Gen.Pre_finite_inputs
import proofs.«107936_j55293408969033_2_alg».proof.Proof.Gen.KernelIdeal.Value
import proofs.«107936_j55293408969033_2_alg».proof.Proof.Gen.ReferenceIdeal.Run
import proofs.«107936_j55293408969033_2_alg».proof.Proof.Gen.ReferenceIdeal.Read
import proofs.«107936_j55293408969033_2_alg».proof.Proof.KernelValue
import proofs.«107936_j55293408969033_2_alg».proof.Proof.Bridge
import proofs.«107936_j55293408969033_2_alg».proof.Proof.Finite
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2.2) (Cert.ReferenceIdeal.Value.run (F := Ideal) m ρ)

/-- The ideal pass rewrote no operation. -/
theorem preserves : Cert.preserves_Kernel_KernelIdeal := trivial

/-- Both programs end with the two result arrays at `weighted` of the argument arrays: the kernel by its run read slab by
    slab, the reference by its run read entry by entry and the softmax law, which the precondition makes applicable. -/
theorem algebraic : Cert.algebraic_KernelIdeal_ReferenceIdeal := by
  intro m ρ m' ρ' hpre hagree
  refine ⟨fun c => Cert.Attend.KernelValue.G0 m c, fun c => Cert.Attend.KernelValue.G1 m c,
    Cert.Attend.KernelValue.run m ρ, ?_⟩
  refine (θ_run Cert.ReferenceIdeal.defs _ _).mono (fun _ h c => ?_) (Cert.ReferenceIdeal.Value.run (F := Ideal) m' ρ')
  obtain ⟨r0, r1, r2, r3⟩ := Cert.Attend.real_of_pre _ _ _ _ (hpre c)
  refine ⟨(h c).1.trans ?_, (h c).2.1.trans ?_, (h c).2.2⟩
  · rw [Cert.ReferenceIdeal.Read.val_main_v49_eq, (hagree c).1, (hagree c).2.1, (hagree c).2.2.1, (hagree c).2.2.2]
    exact Cert.Attend.Bridge.out0_eq _ _ _ _ r0 r2 r3
  · rw [Cert.ReferenceIdeal.Read.val_main_v53_eq, (hagree c).1, (hagree c).2.1, (hagree c).2.2.1, (hagree c).2.2.2]
    exact Cert.Attend.Bridge.out1_eq _ _ _ _ r0 r2 r1

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
